-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x65 : Shape := ⟨2, ![100000, 65]⟩
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S_ : Shape := ⟨0, ![]⟩

class Facts : Prop where
  bcast_S_S100000x65 : S_.BroadcastsInDim S100000x65 (![] : Fin 0 → Fin S100000x65.rank)
  reducesTo_S100000x65_S_d0_1 : S100000x65.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x65 .f32) (main_arg1 : FVec F S100000x65 .f32) (main_arg2 : FVec F S100000x64 .f32) (main_arg3 : FVec F S64x64 .f32) (main_arg4 : FVec F S64 .f32) (main_arg5 : FVec F S64x64 .f32) (main_arg6 : FVec F S64 .f32) (main_arg7 : IVec S2x1600000 32) : IVec S_ 1 :=
  let main_v0 : FVec F S100000x65 .f32 := Host.absf main_arg0
  let main_cst : FVec F S_ .f32 := constant S_ .f32 0x7F800000#32
  let main_v1 : FVec F S100000x65 .f32 := broadcastInDim S100000x65 ![] bcast_S_S100000x65 main_cst
  let main_v2 : IVec S100000x65 1 := cmpf .olt main_v0 main_v1
  let main_c : IVec S_ 1 := constantI S_ 1 1#1
  let main_v3 : IVec S_ 1 := (fun x v => Host.reduce IntOp.andi x v reducesTo_S100000x65_S_d0_1 h_S_) main_v2 main_c
  let main_v4 : FVec F S100000x65 .f32 := Host.absf main_arg1
  let main_cst_0 : FVec F S_ .f32 := constant S_ .f32 0x7F800000#32
  let main_v5 : FVec F S100000x65 .f32 := broadcastInDim S100000x65 ![] bcast_S_S100000x65 main_cst_0
  let main_v6 : IVec S100000x65 1 := cmpf .olt main_v4 main_v5
  let main_c_1 : IVec S_ 1 := constantI S_ 1 1#1
  let main_v7 : IVec S_ 1 := (fun x v => Host.reduce IntOp.andi x v reducesTo_S100000x65_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x65 : Shape := ⟨2, ![100000, 65]⟩
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S3200000 : Shape := ⟨1, ![3200000]⟩
abbrev S3200000x1 : Shape := ⟨2, ![3200000, 1]⟩
abbrev S1600000x64 : Shape := ⟨2, ![1600000, 64]⟩
abbrev S1600000x65 : Shape := ⟨2, ![1600000, 65]⟩
abbrev S1600000x128 : Shape := ⟨2, ![1600000, 128]⟩
abbrev S128x128 : Shape := ⟨2, ![128, 128]⟩
abbrev S1 : Shape := ⟨1, ![1]⟩
abbrev S2 : Shape := ⟨1, ![2]⟩
abbrev S128 : Shape := ⟨1, ![128]⟩
abbrev S1x128 : Shape := ⟨2, ![1, 128]⟩
abbrev S6400x128 : Shape := ⟨2, ![6400, 128]⟩
abbrev S6400x1 : Shape := ⟨2, ![6400, 1]⟩
abbrev S6400 : Shape := ⟨1, ![6400]⟩

abbrev nBuf : Space → Nat
  | .hbm => 158
  | .vmem => 10
  | .smem => 0
  | _ => 0

abbrev hbmTy0_0 (i : Nat) : BufTy := match i % 128 with
  | 0 => ⟨S100000x65, .f32⟩
  | 1 => ⟨S100000x65, .f32⟩
  | 2 => ⟨S100000x64, .f32⟩
  | 3 => ⟨S64x64, .f32⟩
  | 4 => ⟨S64, .f32⟩
  | 5 => ⟨S64x64, .f32⟩
  | 6 => ⟨S64, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S1600000x1, .i32⟩
  | 21 => ⟨S100000, .f32⟩
  | 22 => ⟨S_, .i1⟩
  | 23 => ⟨S100000, .i1⟩
  | 24 => ⟨S3200000, .i32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S_, .i1⟩
  | 34 => ⟨S3200000, .i1⟩
  | 35 => ⟨S100000, .i1⟩
  | 36 => ⟨S100000, .i32⟩
  | 37 => ⟨S_, .i32⟩
  | 38 => ⟨S_, .i32⟩
  | 39 => ⟨S_, .f32⟩
  | 40 => ⟨S_, .f32⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S_, .f32⟩
  | 48 => ⟨S_, .f32⟩
  | 49 => ⟨S_, .f32⟩
  | 50 => ⟨S100000, .f32⟩
  | 51 => ⟨S100000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S_, .f32⟩
  | 62 => ⟨S_, .f32⟩
  | 63 => ⟨S100000, .f32⟩
  | 64 => ⟨S100000, .f32⟩
  | 65 => ⟨S100000, .f32⟩
  | 66 => ⟨S_, .f32⟩
  | 67 => ⟨S_, .f32⟩
  | 68 => ⟨S_, .f32⟩
  | 69 => ⟨S_, .f32⟩
  | 70 => ⟨S_, .f32⟩
  | 71 => ⟨S100000, .f32⟩
  | 72 => ⟨S100000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x65, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x65, .f32⟩
  | 118 => ⟨S1600000x64, .f32⟩
  | 119 => ⟨S1600000x1, .f32⟩
  | 120 => ⟨S1600000, .f32⟩
  | 121 => ⟨S1600000x64, .f32⟩
  | 122 => ⟨S1600000x1, .f32⟩
  | 123 => ⟨S1600000, .f32⟩
  | 124 => ⟨S1600000x128, .f32⟩
  | 125 => ⟨S1600000x128, .bf16⟩
  | 126 => ⟨S1600000x128, .f32⟩
  | 127 => ⟨S1600000, .f32⟩
  | _ => ⟨S100000x65, .f32⟩

abbrev hbmTy0_1 (i : Nat) : BufTy := match i % 128 with
  | 0 => ⟨S_, .f32⟩
  | 1 => ⟨S1600000, .f32⟩
  | 2 => ⟨S1600000, .f32⟩
  | 3 => ⟨S1600000, .f32⟩
  | 4 => ⟨S_, .f32⟩
  | 5 => ⟨S1600000, .f32⟩
  | 6 => ⟨S1600000, .f32⟩
  | 7 => ⟨S1600000, .f32⟩
  | 8 => ⟨S1600000x1, .f32⟩
  | 9 => ⟨S_, .f32⟩
  | 10 => ⟨S128x128, .f32⟩
  | 11 => ⟨S64x64, .f32⟩
  | 12 => ⟨S_, .i32⟩
  | 13 => ⟨S1, .i32⟩
  | 14 => ⟨S_, .i32⟩
  | 15 => ⟨S1, .i32⟩
  | 16 => ⟨S2, .i32⟩
  | 17 => ⟨S128x128, .f32⟩
  | 18 => ⟨S64x64, .f32⟩
  | 19 => ⟨S_, .i32⟩
  | 20 => ⟨S1, .i32⟩
  | 21 => ⟨S_, .i32⟩
  | 22 => ⟨S1, .i32⟩
  | 23 => ⟨S2, .i32⟩
  | 24 => ⟨S128x128, .f32⟩
  | 25 => ⟨S128x128, .bf16⟩
  | 26 => ⟨S128, .f32⟩
  | 27 => ⟨S1x128, .f32⟩
  | 28 => ⟨S1600000x1, .f32⟩
  | 29 => ⟨S1600000, .f32⟩
  | _ => ⟨S100000x65, .f32⟩

abbrev hbmTy (i : Nat) : BufTy := match i / 128 with
  | 0 => hbmTy0_0 i
  | 1 => hbmTy0_1 i
  | _ => ⟨S100000x65, .f32⟩

abbrev bufTy : (tb : Table) → Fin (tcTables nBuf tb) → BufTy
  | .hbm, ⟨i, _⟩ => hbmTy i
  | .local _ .vmem, ⟨0, _⟩ => ⟨S6400x128, .bf16⟩
  | .local _ .vmem, ⟨1, _⟩ => ⟨S6400x128, .bf16⟩
  | .local _ .vmem, ⟨2, _⟩ => ⟨S6400x128, .f32⟩
  | .local _ .vmem, ⟨3, _⟩ => ⟨S6400x128, .f32⟩
  | .local _ .vmem, ⟨4, _⟩ => ⟨S128x128, .bf16⟩
  | .local _ .vmem, ⟨5, _⟩ => ⟨S1x128, .f32⟩
  | .local _ .vmem, ⟨6, _⟩ => ⟨S6400x1, .f32⟩
  | .local _ .vmem, ⟨7, _⟩ => ⟨S6400x1, .f32⟩
  | .local _ .vmem, ⟨8, _⟩ => ⟨S6400x1, .f32⟩
  | .local _ .vmem, ⟨9, _⟩ => ⟨S6400x1, .f32⟩
  | _, _ => ⟨S100000x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_v0 : Ref sig .tc := ⟨.hbm, 44, rfl⟩
abbrev main_call0_cst : Ref sig .tc := ⟨.hbm, 45, rfl⟩
abbrev main_call0_v1 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_v0 : Ref sig .tc := ⟨.hbm, 65, rfl⟩
abbrev main_call1_cst : Ref sig .tc := ⟨.hbm, 66, rfl⟩
abbrev main_call1_v1 : Ref sig .tc := ⟨.hbm, 67, rfl⟩
abbrev main_v41 : Ref sig .tc := ⟨.hbm, 68, rfl⟩
abbrev main_cst_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_c_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_c_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_16 : Ref sig .tc := ⟨.hbm, 91, rfl⟩
abbrev main_v59 : Ref sig .tc := ⟨.hbm, 92, rfl⟩
abbrev main_v60 : Ref sig .tc := ⟨.hbm, 93, rfl⟩
abbrev main_c_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_18 : Ref sig .tc := ⟨.hbm, 100, rfl⟩
abbrev main_v66 : Ref sig .tc := ⟨.hbm, 101, rfl⟩
abbrev main_v67 : Ref sig .tc := ⟨.hbm, 102, rfl⟩
abbrev main_c_19 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_20 : Ref sig .tc := ⟨.hbm, 109, rfl⟩
abbrev main_v73 : Ref sig .tc := ⟨.hbm, 110, rfl⟩
abbrev main_v74 : Ref sig .tc := ⟨.hbm, 111, rfl⟩
abbrev main_c_21 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_22 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_23 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_24 : Ref sig .tc := ⟨.hbm, 137, rfl⟩
abbrev main_v97 : Ref sig .tc := ⟨.hbm, 138, rfl⟩
abbrev main_v98 : Ref sig .tc := ⟨.hbm, 139, rfl⟩
abbrev main_c_25 : Ref sig .tc := ⟨.hbm, 140, rfl⟩
abbrev main_v99 : Ref sig .tc := ⟨.hbm, 141, rfl⟩
abbrev main_c_26 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_27 : Ref sig .tc := ⟨.hbm, 147, rfl⟩
abbrev main_v104 : Ref sig .tc := ⟨.hbm, 148, rfl⟩
abbrev main_c_28 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6400x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S2x1600000_S3200000 : S2x1600000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  natLt_1_32 : 1 < 32
  reducesTo_S100000_S_d0 : S100000.ReducesTo [0] S_
  h_S_ : 0 < S_.numel
  slices_S1600000x65_S1600000x64_0_0 : S1600000x65.Slices ![0, 0] S1600000x64
  slices_S1600000x65_S1600000x1_0_64 : S1600000x65.Slices ![0, 64] S1600000x1
  shapeCasts_S1600000x1_S1600000 : S1600000x1.ShapeCasts S1600000
  concatenates_S1600000x64_S1600000x64_S1600000x128_d1 : Shape.Concatenates [S1600000x64, S1600000x64] S1600000x128 1
  bitsLt_bf16_f32 : FTy.bits .bf16 < FTy.bits .f32
  shapeCasts_S1600000_S1600000x1 : S1600000.ShapeCasts S1600000x1
  bcast_S_S128x128 : S_.BroadcastsInDim S128x128 (![] : Fin 0 → Fin S128x128.rank)
  transposes_S64x64_S64x64_1_0 : S64x64.Transposes [1, 0] S64x64
  bcast_S_S1 : S_.BroadcastsInDim S1 (![] : Fin 0 → Fin S1.rank)
  concatenates_S1_S1_S2_d0 : Shape.Concatenates [S1, S1] S2 0
  concatenates_S64_S64_S128_d0 : Shape.Concatenates [S64, S64] S128 0
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  reduces_S6400x128_S6400 : S6400x128.Reduces [1] S6400
  shapeCasts_S6400_S6400x1 : S6400.ShapeCasts S6400x1
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  scatter_S100000_S1600000x1_S1600000_n_0_0_1_wf : ScatterDims.WF S100000 S1600000x1 S1600000 [] [0] [0] 1
  scatter_S100000_S3200000x1_S3200000_n_0_0_1_wf : ScatterDims.WF S100000 S3200000x1 S3200000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  gather_S100000x65_S1600000x1_S1600000x65_1_0_n_n_0_1_165_wf : GatherDims.WF S100000x65 S1600000x1 S1600000x65 [1] [0] [] [0] [] 1 ![1, 65]
  scatter_S128x128_S2_S64x64_01_n_01_0_wf : ScatterDims.WF S128x128 S2 S64x64 [0, 1] [] [0, 1] 0
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .bf16 = 32 ∨ (Rect.block (s := S1600000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .f32 = 32 ∨ (Rect.block (s := S1600000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x1.size a ≤ S1600000x1.size a
  hwx0_4 : ∀ i : grid0.Coords, EltTy.bits .f32 = 32 ∨ (Rect.block (s := S1600000x1) S6400x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x1.size a ≤ S1600000x1.size a
  hwx0_5 : ∀ i : grid0.Coords, EltTy.bits .f32 = 32 ∨ (Rect.block (s := S1600000x1) S6400x1.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x65_S1600000x1_S1600000x65_1_0_n_n_0_1_165 : GatherDims S100000x65 S1600000x1 S1600000x65 where
  offsetDims := [1]
  collapsedSliceDims := [0]
  operandBatchingDims := []
  startIndicesBatchingDims := []
  startIndexMap := [0]
  indexVectorDim := 1
  sliceSizes := ![1, 65]
  wf := gather_S100000x65_S1600000x1_S1600000x65_1_0_n_n_0_1_165_wf
def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_v87) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v88) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v108) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v110) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v96) S6400x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v111) S6400x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x65 : Shape := ⟨2, ![100000, 65]⟩
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S3200000 : Shape := ⟨1, ![3200000]⟩
abbrev S3200000x1 : Shape := ⟨2, ![3200000, 1]⟩
abbrev S1600000x64 : Shape := ⟨2, ![1600000, 64]⟩
abbrev S1x64 : Shape := ⟨2, ![1, 64]⟩
abbrev S1600000x2 : Shape := ⟨2, ![1600000, 2]⟩

abbrev nBuf : Space → Nat
  | .hbm => 193
  | .vmem => 0
  | .smem => 0
  | _ => 0

abbrev hbmTy0_0 (i : Nat) : BufTy := match i % 128 with
  | 0 => ⟨S100000x65, .f32⟩
  | 1 => ⟨S100000x65, .f32⟩
  | 2 => ⟨S100000x64, .f32⟩
  | 3 => ⟨S64x64, .f32⟩
  | 4 => ⟨S64, .f32⟩
  | 5 => ⟨S64x64, .f32⟩
  | 6 => ⟨S64, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S1600000x1, .i32⟩
  | 21 => ⟨S100000, .f32⟩
  | 22 => ⟨S_, .i1⟩
  | 23 => ⟨S100000, .i1⟩
  | 24 => ⟨S3200000, .i32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S_, .i1⟩
  | 34 => ⟨S3200000, .i1⟩
  | 35 => ⟨S100000, .i1⟩
  | 36 => ⟨S100000, .i32⟩
  | 37 => ⟨S_, .i32⟩
  | 38 => ⟨S_, .i32⟩
  | 39 => ⟨S_, .f32⟩
  | 40 => ⟨S_, .f32⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S_, .f32⟩
  | 48 => ⟨S_, .f32⟩
  | 49 => ⟨S_, .f32⟩
  | 50 => ⟨S100000, .f32⟩
  | 51 => ⟨S100000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S_, .f32⟩
  | 62 => ⟨S_, .f32⟩
  | 63 => ⟨S100000, .f32⟩
  | 64 => ⟨S100000, .f32⟩
  | 65 => ⟨S100000, .f32⟩
  | 66 => ⟨S_, .f32⟩
  | 67 => ⟨S_, .f32⟩
  | 68 => ⟨S_, .f32⟩
  | 69 => ⟨S_, .f32⟩
  | 70 => ⟨S_, .f32⟩
  | 71 => ⟨S100000, .f32⟩
  | 72 => ⟨S100000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S64x64, .f32⟩
  | 92 => ⟨S1600000x64, .f32⟩
  | 93 => ⟨S1x64, .f32⟩
  | 94 => ⟨S1600000x64, .f32⟩
  | 95 => ⟨S1600000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S64x64, .f32⟩
  | 106 => ⟨S1600000x64, .f32⟩
  | 107 => ⟨S1x64, .f32⟩
  | 108 => ⟨S1600000x64, .f32⟩
  | 109 => ⟨S1600000x64, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S_, .i32⟩
  | 118 => ⟨S1600000, .i32⟩
  | 119 => ⟨S1600000, .i32⟩
  | 120 => ⟨S1600000x1, .i32⟩
  | 121 => ⟨S1600000x1, .i32⟩
  | 122 => ⟨S1600000x2, .i32⟩
  | 123 => ⟨S1600000, .f32⟩
  | 124 => ⟨S1600000, .f32⟩
  | 125 => ⟨S_, .f32⟩
  | 126 => ⟨S1600000, .f32⟩
  | 127 => ⟨S1600000, .f32⟩
  | _ => ⟨S100000x65, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S_, .i32⟩
  | 9 => ⟨S1600000x1, .i32⟩
  | 10 => ⟨S1600000x2, .i32⟩
  | 11 => ⟨S1600000x64, .f32⟩
  | 12 => ⟨S1600000x64, .f32⟩
  | 13 => ⟨S_, .f32⟩
  | 14 => ⟨S1600000, .f32⟩
  | 15 => ⟨S_, .f32⟩
  | 16 => ⟨S1600000, .f32⟩
  | 17 => ⟨S1600000, .f32⟩
  | 18 => ⟨S1600000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S_, .i32⟩
  | 27 => ⟨S1600000, .i32⟩
  | 28 => ⟨S1600000, .i32⟩
  | 29 => ⟨S1600000x1, .i32⟩
  | 30 => ⟨S1600000x1, .i32⟩
  | 31 => ⟨S1600000x2, .i32⟩
  | 32 => ⟨S1600000, .f32⟩
  | 33 => ⟨S1600000, .f32⟩
  | 34 => ⟨S_, .f32⟩
  | 35 => ⟨S1600000, .f32⟩
  | 36 => ⟨S1600000, .f32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S_, .i32⟩
  | 47 => ⟨S1600000x1, .i32⟩
  | 48 => ⟨S1600000x2, .i32⟩
  | 49 => ⟨S1600000x64, .f32⟩
  | 50 => ⟨S1600000x64, .f32⟩
  | 51 => ⟨S_, .f32⟩
  | 52 => ⟨S1600000, .f32⟩
  | 53 => ⟨S_, .f32⟩
  | 54 => ⟨S1600000, .f32⟩
  | 55 => ⟨S1600000, .f32⟩
  | 56 => ⟨S1600000, .f32⟩
  | 57 => ⟨S1600000, .f32⟩
  | 58 => ⟨S1600000, .f32⟩
  | 59 => ⟨S_, .f32⟩
  | 60 => ⟨S1600000, .f32⟩
  | 61 => ⟨S1600000, .f32⟩
  | 62 => ⟨S_, .f32⟩
  | 63 => ⟨S1600000, .f32⟩
  | 64 => ⟨S1600000, .f32⟩
  | _ => ⟨S100000x65, .f32⟩

abbrev hbmTy (i : Nat) : BufTy := match i / 128 with
  | 0 => hbmTy0_0 i
  | 1 => hbmTy0_1 i
  | _ => ⟨S100000x65, .f32⟩

abbrev bufTy : (tb : Table) → Fin (tcTables nBuf tb) → BufTy
  | .hbm, ⟨i, _⟩ => hbmTy i
  | _, _ => ⟨S100000x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_v0 : Ref sig .tc := ⟨.hbm, 44, rfl⟩
abbrev main_call0_cst : Ref sig .tc := ⟨.hbm, 45, rfl⟩
abbrev main_call0_v1 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_v0 : Ref sig .tc := ⟨.hbm, 65, rfl⟩
abbrev main_call1_cst : Ref sig .tc := ⟨.hbm, 66, rfl⟩
abbrev main_call1_v1 : Ref sig .tc := ⟨.hbm, 67, rfl⟩
abbrev main_v41 : Ref sig .tc := ⟨.hbm, 68, rfl⟩
abbrev main_cst_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_c_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_c_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_c_17 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_v89 : Ref sig .tc := ⟨.hbm, 127, rfl⟩
abbrev main_c_22 : Ref sig .tc := ⟨.hbm, 128, rfl⟩
abbrev main_v90 : Ref sig .tc := ⟨.hbm, 129, rfl⟩
abbrev main_v91 : Ref sig .tc := ⟨.hbm, 130, rfl⟩
abbrev main_c_23 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_24 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_25 : Ref sig .tc := ⟨.hbm, 141, rfl⟩
abbrev main_v100 : Ref sig .tc := ⟨.hbm, 142, rfl⟩
abbrev main_cst_26 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_27 : Ref sig .tc := ⟨.hbm, 147, rfl⟩
abbrev main_v104 : Ref sig .tc := ⟨.hbm, 148, rfl⟩
abbrev main_v105 : Ref sig .tc := ⟨.hbm, 149, rfl⟩
abbrev main_c_28 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_29 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_30 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_31 : Ref sig .tc := ⟨.hbm, 166, rfl⟩
abbrev main_v119 : Ref sig .tc := ⟨.hbm, 167, rfl⟩
abbrev main_v120 : Ref sig .tc := ⟨.hbm, 168, rfl⟩
abbrev main_c_32 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_33 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_34 : Ref sig .tc := ⟨.hbm, 179, rfl⟩
abbrev main_v129 : Ref sig .tc := ⟨.hbm, 180, rfl⟩
abbrev main_cst_35 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_36 : Ref sig .tc := ⟨.hbm, 187, rfl⟩
abbrev main_v135 : Ref sig .tc := ⟨.hbm, 188, rfl⟩
abbrev main_v136 : Ref sig .tc := ⟨.hbm, 189, rfl⟩
abbrev main_cst_37 : Ref sig .tc := ⟨.hbm, 190, rfl⟩
abbrev main_v137 : Ref sig .tc := ⟨.hbm, 191, rfl⟩
abbrev main_v138 : Ref sig .tc := ⟨.hbm, 192, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S2x1600000_S3200000 : S2x1600000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  natLt_1_32 : 1 < 32
  reducesTo_S100000_S_d0 : S100000.ReducesTo [0] S_
  h_S_ : 0 < S_.numel
  transposes_S64x64_S64x64_1_0 : S64x64.Transposes [1, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  concatenates_S1600000x1_S1600000x1_S1600000x2_d1 : Shape.Concatenates [S1600000x1, S1600000x1] S1600000x2 1
  bcast_S_S1600000x1 : S_.BroadcastsInDim S1600000x1 (![] : Fin 0 → Fin S1600000x1.rank)
  reducesTo_S1600000x64_S1600000_d1 : S1600000x64.ReducesTo [1] S1600000
  scatter_S100000_S1600000x1_S1600000_n_0_0_1_wf : ScatterDims.WF S100000 S1600000x1 S1600000 [] [0] [0] 1
  scatter_S100000_S3200000x1_S3200000_n_0_0_1_wf : ScatterDims.WF S100000 S3200000x1 S3200000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  gather_S100000x65_S1600000x2_S1600000_n_01_n_n_01_1_11_wf : GatherDims.WF S100000x65 S1600000x2 S1600000 [] [0, 1] [] [0, 1] [] 1 ![1, 1]
  gather_S100000x65_S1600000x2_S1600000x64_1_0_n_n_01_1_164_wf : GatherDims.WF S100000x65 S1600000x2 S1600000x64 [1] [0] [] [0, 1] [] 1 ![1, 64]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x65_S1600000x2_S1600000_n_01_n_n_01_1_11 : GatherDims S100000x65 S1600000x2 S1600000 where
  offsetDims := []
  collapsedSliceDims := [0, 1]
  operandBatchingDims := []
  startIndicesBatchingDims := []
  startIndexMap := [0, 1]
  indexVectorDim := 1
  sliceSizes := ![1, 1]
  wf := gather_S100000x65_S1600000x2_S1600000_n_01_n_n_01_1_11_wf
def gather_S100000x65_S1600000x2_S1600000x64_1_0_n_n_01_1_164 : GatherDims S100000x65 S1600000x2 S1600000x64 where
  offsetDims := [1]
  collapsedSliceDims := [0]
  operandBatchingDims := []
  startIndicesBatchingDims := []
  startIndexMap := [0, 1]
  indexVectorDim := 1
  sliceSizes := ![1, 64]
  wf := gather_S100000x65_S1600000x2_S1600000x64_1_0_n_n_01_1_164_wf

class Facts : Prop extends Facts₀ where

variable [Facts]
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  The vector-unit operations a row-wise kernel body is made of, read at an index, at any sizes: the sum along the
  rows of a matrix, the grand total of a one-row matrix taken out as a scalar, and the row of a matrix that a
  unit-stride rectangle of one row loads.
-/
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws
import proofs.«113370_j67104569033152_2_alg».proof.Proof.LibColumn

noncomputable section

namespace Cert.LibRowOps

open Idealize.ShloMosaic Idealize.ShloMosaic.ValueIdx

/-- The sum along axis 1 of an `[a, b]` matrix from a zero accumulator, read at row `p`: the sum of the row's entries. -/
theorem rowSums_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  show ∑ k : Fin b, v (h.lift (ix1 p) k) = _
  refine Finset.sum_congr rfl fun k _ => congrArg v ?_
  funext d
  match d with
  | ⟨0, _⟩ => rfl
  | ⟨1, _⟩ => rfl

/-- The same sum kept as a column `[a, 1]`, read at `(p, u)`. -/
theorem rowSums_column_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩ v 0x00000000#32 h hφ hacc) hc (ix2 p u)
      = ∑ k : Fin b, v (ix2 p k) :=
  (Cert.LibColumn.shapeCast_a_a1_apply _ hc p u).trans (rowSums_apply v h hφ hacc p)

/-- The grand total of a one-row matrix `[1, b]`: summed along its row into `[1]`, cast to `[1, 1]` and taken out
    as a scalar, it is the sum of the row's entries. -/
theorem rowTotal_extract {b : ℕ} (u : FVec Ideal ⟨2, ![1, b]⟩ .f32)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ (multiReduction .add [1] ⟨1, ![1]⟩ u 0x00000000#32 h hφ hacc) hc) hp
      = ∑ k : Fin b, u (ix2 (0 : Fin 1) k) := by
  have e : (fun a => ⟨(![0, 0] : Fin 2 → Nat) a, hp a⟩ : (⟨2, ![1, 1]⟩ : Shape).Idx) = ix2 (0 : Fin 1) (0 : Fin 1) :=
    funext fun d => match d with | ⟨0, _⟩ => rfl | ⟨1, _⟩ => rfl
  unfold extractAt
  rw [e]
  exact rowSums_column_apply u h hφ hacc hc 0 0

/-- What the unit-stride rectangle at `(l, 0)` of extent `[1, b]` loads of an `[n, b]` matrix: its row `l`. -/
theorem ld_row_eq {Val : EltTy → Type} {e : EltTy} {n b : ℕ} (x : (⟨2, ![n, b]⟩ : Shape).Idx → Val e) (l : ℕ)
    (inb : ∀ a, (![l, 0] : Fin 2 → Nat) a + (![1, b] : Fin 2 → Nat) a ≤ (⟨2, ![n, b]⟩ : Shape).size a) :
    View.ld x (Rect.unit (s := ⟨2, ![n, b]⟩) ![l, 0] ![1, b] inb)
      = fun i => x (ix2 (⟨l, Nat.lt_of_succ_le (inb 0)⟩ : Fin n) (⟨(i 1).val, (i 1).isLt⟩ : Fin b)) := by
  funext i
  show x ((Rect.unit (s := ⟨2, ![n, b]⟩) ![l, 0] ![1, b] inb).idx i) = _
  refine congrArg x (funext fun d => ?_)
  have h0 : (i 0).val < 1 := (i 0).isLt
  match d with
  | ⟨0, _⟩ => exact Fin.ext (by show l + 1 * (i 0).val = l; omega)
  | ⟨1, _⟩ => exact Fin.ext (by show 0 + 1 * (i 1).val = (i 1).val; omega)

/-- A vector `w` laid along every row of an `[a, b]` matrix `x`, multiplied into it entry by entry and summed along
    the rows, kept as a column: entry `(p, u)` is  Σ_k w k · x (p, k). -/
theorem weightedRowSums_column_apply {a b : ℕ} (w : FVec Ideal ⟨1, ![b]⟩ .f32) (x : FVec Ideal ⟨2, ![a, b]⟩ .f32)
    (h1 : (⟨1, ![b]⟩ : Shape).ShapeCasts ⟨2, ![1, b]⟩) (h2 : (⟨2, ![1, b]⟩ : Shape).Broadcasts ⟨2, ![a, b]⟩)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩
        (mulf (broadcastTo ⟨2, ![a, b]⟩ (shapeCast ⟨2, ![1, b]⟩ w h1) h2) x) 0x00000000#32 h hφ hacc) hc (ix2 p u)
      = ∑ k : Fin b, w (ix1 k) * x (ix2 p k) := by
  refine (rowSums_column_apply _ h hφ hacc hc p u).trans (Finset.sum_congr rfl fun k _ => ?_)
  show broadcastTo ⟨2, ![a, b]⟩ (shapeCast ⟨2, ![1, b]⟩ w h1) h2 (ix2 p k) * x (ix2 p k) = _
  rw [broadcastTo_1b_ab_apply, shapeCast_a_1a_apply]

/-- The grand total of a vector: laid out as one row, summed, cast to `[1, 1]` and taken out as a scalar. -/
theorem vecTotal_extract {b : ℕ} (v : FVec Ideal ⟨1, ![b]⟩ .f32) (h1 : (⟨1, ![b]⟩ : Shape).ShapeCasts ⟨2, ![1, b]⟩)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩
        (multiReduction .add [1] ⟨1, ![1]⟩ (shapeCast ⟨2, ![1, b]⟩ v h1) 0x00000000#32 h hφ hacc) hc) hp
      = ∑ k : Fin b, v (ix1 k) := by
  refine (rowTotal_extract _ h hφ hacc hc hp).trans (Finset.sum_congr rfl fun k _ => ?_)
  exact shapeCast_a_1a_apply v h1 0 k

end Cert.LibRowOps

end
-- ==== Proof.KernelPayload.lean ====
/-
  What the kernel's body stores, read at one row of a tile.

  For a tile of 6400 edges the body forms  s = A·Wbd + bias  (a 6400×128 by 128×128 product into a zero accumulator,
  the bias row laid along every row), multiplies it entry by entry with B, sums each row over its 128 lanes, halves the
  row sum, adds the auxiliary column and applies the logistic function.  Entry (p, ·) of the stored column is therefore
      logistic( aux p + ½ · Σ_j B(p, j) · (Σ_k A(p, k) · Wbd(k, j) + bias(0, j)) ).
-/
import proofs.«113370_j67104569033152_2_alg».proof.Proof.Gen.KernelIdeal.Skeleton
import proofs.«113370_j67104569033152_2_alg».proof.Proof.LibRowOps
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

theorem lhs_axis0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide),
    dif_pos (show (0 : Fin S6400x128.rank) ∈ dot_S6400x128_S128x128_S6400x128_1_0_0_1_n_n.lhsNonContracting by decide)]
  rfl
theorem lhs_axis1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs_axis0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs_axis1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide),
    dif_pos (show (1 : Fin S128x128.rank) ∈ dot_S6400x128_S128x128_S6400x128_1_0_0_1_n_n.rhsNonContracting by decide)]
  rfl

/-- The tile product into a zero accumulator, at (p, j): the sum over the 128 contracted lanes. -/
theorem tile_product_apply (a : FVec Ideal S6400x128 .bf16) (w : FVec Ideal S128x128 .bf16) (p : Fin 6400) (j : Fin 128) :
    matmul (F := Ideal) dot_S6400x128_S128x128_S6400x128_1_0_0_1_n_n none a w (constant (F := Ideal) S6400x128 .f32 0x00000000#32) (ix2 p j)
      = ∑ k : Fin 128, a (ix2 p k) * w (ix2 k j) := by
  refine (Ideal.matmul_constant_zero_apply dot_S6400x128_S128x128_S6400x128_1_0_0_1_n_n none a w (ix2 p j)).trans ?_
  rw [← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 p j)
      ((contrEquiv1 dot_S6400x128_S128x128_S6400x128_1_0_0_1_n_n 128 rfl rfl).symm k) = ix2 p k :=
    funext fun ax => Fin.ext (by
      match ax with
      | ⟨0, _⟩ => exact lhs_axis0 _ _
      | ⟨1, _⟩ => exact (lhs_axis1 _ _).trans hk)
  have er : dot_S6400x128_S128x128_S6400x128_1_0_0_1_n_n.rhsIdx (ix2 p j)
      ((contrEquiv1 dot_S6400x128_S128x128_S6400x128_1_0_0_1_n_n 128 rfl rfl).symm k) = ix2 k j :=
    funext fun ax => Fin.ext (by
      match ax with
      | ⟨0, _⟩ => exact (rhs_axis0 _ _).trans hk
      | ⟨1, _⟩ => exact rhs_axis1 _ _)
  rw [el, er]

/-- The bias row laid along every row of the tile, at (p, j): the row's entry j. -/
theorem bias_rows_apply (b : FVec Ideal S1x128 .f32) (p : Fin 6400) (j : Fin 128) :
    broadcastTo S6400x128 b broadcasts_S1x128_S6400x128 (ix2 p j) = b (ix2 (0 : Fin 1) j) :=
  broadcastTo_apply b broadcasts_S1x128_S6400x128 (ix2 p j) (ix2 (0 : Fin 1) j) (fun ax => match ax with
    | ⟨0, _⟩ => by show (0 : ℕ) = if (1 : ℕ) = 1 then 0 else p.val; rw [if_pos rfl]
    | ⟨1, _⟩ => by show j.val = if (128 : ℕ) = 1 then 0 else j.val; rw [if_neg (by decide)])

/-- THE STORED COLUMN at (p, u). -/
theorem stored_apply (x0 : Vec Ideal S6400x128 .bf16) (x2 : Vec Ideal S128x128 .bf16) (x5 : Vec Ideal S1x128 .f32)
    (x9 : Vec Ideal S6400x128 .f32) (x14 : Vec Ideal S6400x1 .f32) (p : Fin 6400) (u : Fin 1) :
    k0_pay1 (F := Ideal) x0 x2 x5 x9 x14 (ix2 p u)
      = Ideal.logistic (x14 (ix2 p u) + Ideal.ofBits .f32 0x3F000000#32 *
          ∑ j : Fin 128, x9 (ix2 p j) * ((∑ k : Fin 128, x0 (ix2 p k) * x2 (ix2 k j)) + x5 (ix2 (0 : Fin 1) j))) := by
  unfold k0_pay1
  simp only [shapeCast_self]
  show Ideal.logistic (x14 (ix2 p u) + Ideal.ofBits .f32 0x3F000000#32 *
      shapeCast S6400x1 (multiReduction (F := Ideal) .add [1] S6400
        (mulf x9 (addf (matmul (F := Ideal) dot_S6400x128_S128x128_S6400x128_1_0_0_1_n_n none x0 x2 (constant (F := Ideal) S6400x128 .f32 0x00000000#32))
          (broadcastTo S6400x128 x5 broadcasts_S1x128_S6400x128))) 0x00000000#32 reduces_S6400x128_S6400 (.inl rfl) rfl)
        shapeCasts_S6400_S6400x1 (ix2 p u)) = _
  refine congrArg (fun z => Ideal.logistic (x14 (ix2 p u) + Ideal.ofBits .f32 0x3F000000#32 * z)) ?_
  refine (Cert.LibRowOps.rowSums_column_apply _ reduces_S6400x128_S6400 (.inl rfl) rfl shapeCasts_S6400_S6400x1 p u).trans ?_
  refine Finset.sum_congr rfl fun j _ => ?_
  show x9 (ix2 p j) * (matmul (F := Ideal) dot_S6400x128_S128x128_S6400x128_1_0_0_1_n_n none x0 x2 (constant (F := Ideal) S6400x128 .f32 0x00000000#32) (ix2 p j)
      + broadcastTo S6400x128 x5 broadcasts_S1x128_S6400x128 (ix2 p j)) = _
  rw [tile_product_apply, bias_rows_apply]

end Cert.KernelIdeal.Payload

end
-- ==== Proof.KernelValue.lean ====
/-
  The kernel's result as one function of the arrays its host prelude leaves.

  The region walks 250 tiles of 6400 edges.  Tile t reads rows [6400 t, 6400 t + 6400) of the packed feature arrays A and
  B and of the auxiliary column, reads the block-diagonal weight matrix and the bias row whole, and writes rows
  [6400 t, 6400 t + 6400) of the result column.  Row e of the result column is therefore one function of row e of A, B and
  the auxiliary column and of the weights and bias: the per-row value of the stored column (KernelPayload) at row
  e mod 6400 of tile e / 6400.  The tiles cover every row, so the whole column is that function; the host line after the
  region only drops the unit axis.
-/
import proofs.«113370_j67104569033152_2_alg».proof.Proof.Gen.KernelIdeal.Frame
import proofs.«113370_j67104569033152_2_alg».proof.Proof.KernelPayload
import Idealize.ShloMosaic.Lib.Pipeline.Value
import Idealize.ShloMosaic.Lib.StableHlo.Run

set_option maxRecDepth 16384

noncomputable section

namespace Cert.KernelIdeal.ScoreValue

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

/-- The score column as one function of the five staged arrays: row `e` from row `e` of `A`, `B` and `aux`. -/
def scoreCol (A B : S1600000x128.Idx → EReal) (W : S128x128.Idx → EReal) (bias : S1x128.Idx → EReal)
    (aux : S1600000x1.Idx → EReal) : S1600000x1.Idx → EReal :=
  fun i => Ideal.logistic (aux (ix2 (i 0) (0 : Fin 1)) + Ideal.ofBits .f32 0x3F000000#32 *
    ∑ j : Fin 128, B (ix2 (i 0) j) * ((∑ k : Fin 128, A (ix2 (i 0) k) * W (ix2 k j)) + bias (ix2 (0 : Fin 1) j)))

theorem hz : (![0, 0] : Fin 2 → Nat) = fun _ => 0 := funext fun a => by fin_cases a <;> rfl

/-- The printed index maps over the grid: the row-tiled windows sit at block row `t`, the whole-array windows at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- WHAT TILE `t` WRITES BACK is block `t` of the score column of the arrays as the region finds them. -/
theorem flushed_eq (c : Dev nD) (t : Fin cfg0.N) :
    (dats m 0 c).flushed 5 t = ((cfg0.win 5).blk t).view.read (Elt Ideal)
      (scoreCol (V m c main_v87) (V m c main_v88) (V m c main_v108) (V m c main_v110) (V m c main_v96)) := by
  show (cfg0.win 5).cut (grid0.coords t) ((dats m 0 c).after 5 t) = _
  rw [after0_5]
  unfold out0_5
  rw [View.canon_unit_zero hz]
  simp only [View.ld_unit_zero (S := S6400x128) hz, View.ld_unit_zero (S := S128x128) hz, View.ld_unit_zero (S := S1x128) hz,
    View.ld_unit_zero (S := S6400x1) hz]
  obtain ⟨e00, e01, e10, e11, e20, e21, e30, e31, e40, e41, e50, e51⟩ := idx_facts t
  funext y
  rw [View.read_apply]
  obtain ⟨p, u, rfl⟩ : ∃ (p : Fin 6400) (u : Fin 1), y = ix2 p u := ⟨y 0, y 1, eq_ix2 y⟩
  have hx : (cfg0.win 5).xinj (grid0.coords t) (ix2 p u) = (ix2 p u : S6400x1.Idx) := funext fun a => Fin.ext rfl
  refine Eq.trans (congrArg (k0_pay1 (F := Ideal) (iblk m c 0 t) (iblk m c 2 t) (iblk m c 3 t) (iblk m c 1 t) (iblk m c 4 t)) hx) ?_
  refine (Payload.stored_apply (iblk m c 0 t) (iblk m c 2 t) (iblk m c 3 t) (iblk m c 1 t) (iblk m c 4 t) p u).trans ?_
  unfold scoreCol
  have h4 : iblk m c 4 t (ix2 p u) = V m c main_v96 (ix2 ((((cfg0.win 5).blk t).view.emb (ix2 p u)) 0) (0 : Fin 1)) := by
    show V m c main_v96 (((cfg0.win 4).blk t).view.emb (ix2 p u)) = _
    refine congrArg (V m c main_v96) (funext fun a => Fin.ext ?_)
    match a with
    | ⟨0, _⟩ => show win0_4.index t (0 : Fin 2) * 6400 + 1 * p.val = win0_5.index t (0 : Fin 2) * 6400 + 1 * p.val; omega
    | ⟨1, _⟩ => show win0_4.index t (1 : Fin 2) * 1 + 1 * u.val = 0; have := u.isLt; omega
  have h1 : ∀ j : Fin 128, iblk m c 1 t (ix2 p j) = V m c main_v88 (ix2 ((((cfg0.win 5).blk t).view.emb (ix2 p u)) 0) j) := fun j => by
    show V m c main_v88 (((cfg0.win 1).blk t).view.emb (ix2 p j)) = _
    refine congrArg (V m c main_v88) (funext fun a => Fin.ext ?_)
    match a with
    | ⟨0, _⟩ => show win0_1.index t (0 : Fin 2) * 6400 + 1 * p.val = win0_5.index t (0 : Fin 2) * 6400 + 1 * p.val; omega
    | ⟨1, _⟩ => show win0_1.index t (1 : Fin 2) * 128 + 1 * j.val = j.val; omega
  have h0 : ∀ k : Fin 128, iblk m c 0 t (ix2 p k) = V m c main_v87 (ix2 ((((cfg0.win 5).blk t).view.emb (ix2 p u)) 0) k) := fun k => by
    show V m c main_v87 (((cfg0.win 0).blk t).view.emb (ix2 p k)) = _
    refine congrArg (V m c main_v87) (funext fun a => Fin.ext ?_)
    match a with
    | ⟨0, _⟩ => show win0_0.index t (0 : Fin 2) * 6400 + 1 * p.val = win0_5.index t (0 : Fin 2) * 6400 + 1 * p.val; omega
    | ⟨1, _⟩ => show win0_0.index t (1 : Fin 2) * 128 + 1 * k.val = k.val; omega
  have h2 : ∀ (k j : Fin 128), iblk m c 2 t (ix2 k j) = V m c main_v108 (ix2 k j) := fun k j => by
    show V m c main_v108 (((cfg0.win 2).blk t).view.emb (ix2 k j)) = _
    refine congrArg (V m c main_v108) (funext fun a => Fin.ext ?_)
    match a with
    | ⟨0, _⟩ => show win0_2.index t (0 : Fin 2) * 128 + 1 * k.val = k.val; omega
    | ⟨1, _⟩ => show win0_2.index t (1 : Fin 2) * 128 + 1 * j.val = j.val; omega
  have h3 : ∀ j : Fin 128, iblk m c 3 t (ix2 (0 : Fin 1) j) = V m c main_v110 (ix2 (0 : Fin 1) j) := fun j => by
    show V m c main_v110 (((cfg0.win 3).blk t).view.emb (ix2 (0 : Fin 1) j)) = _
    refine congrArg (V m c main_v110) (funext fun a => Fin.ext ?_)
    match a with
    | ⟨0, _⟩ => show win0_3.index t (0 : Fin 2) * 1 + 1 * 0 = 0; omega
    | ⟨1, _⟩ => show win0_3.index t (1 : Fin 2) * 128 + 1 * j.val = j.val; omega
  simp only [h0, h1, h2, h3, h4, cast_eq]

/-- An index of the result column is in tile `t`'s block iff each coordinate is in the block's range on its axis. -/
theorem mem_blk (t : Fin cfg0.N) (i : S1600000x1.Idx) :
    i ∈ ((cfg0.win 5).blk t).view.set ↔ ∀ a : Fin 2, win0_5.index t a * S6400x1.size a ≤ (i a).val ∧ (i a).val < win0_5.index t a * S6400x1.size a + S6400x1.size a := by
  show i ∈ ((View.whole main_v111).slice (win0_5.rect t)).set ↔ _
  rw [View.set_slice_whole, Rect.mem_set_unit]
  exact Iff.rfl

/-- Every row of the result column lies in the block of the tile `row / 6400`. -/
theorem cover (i : S1600000x1.Idx) : ∃ t : Fin cfg0.N, (cfg0.win 5).flush t = true ∧ i ∈ ((cfg0.win 5).blk t).view.set := by
  have hi0 : (i 0).val < 1600000 := (i 0).isLt
  have hi1 : (i 1).val < 1 := (i 1).isLt
  refine ⟨⟨(i 0).val / 6400, by show (i 0).val / 6400 < 250; omega⟩, flush0_5 _, ?_⟩
  rw [mem_blk]
  obtain ⟨-, -, -, -, -, -, -, -, -, -, e50, e51⟩ := idx_facts ⟨(i 0).val / 6400, by show (i 0).val / 6400 < 250; omega⟩
  intro a
  match a with
  | ⟨0, _⟩ =>
    show win0_5.index _ (0 : Fin 2) * 6400 ≤ (i 0).val ∧ (i 0).val < win0_5.index _ (0 : Fin 2) * 6400 + 6400
    rw [e50]; show (i 0).val / 6400 * 6400 ≤ (i 0).val ∧ (i 0).val < (i 0).val / 6400 * 6400 + 6400; omega
  | ⟨1, _⟩ =>
    show win0_5.index _ (1 : Fin 2) * 1 ≤ (i 1).val ∧ (i 1).val < win0_5.index _ (1 : Fin 2) * 1 + 1
    rw [e51]; omega

/-- THE RESULT COLUMN after the region. -/
theorem final (c : Dev nD) : (dats m 0 c).arrAt 5 cfg0.N
    = scoreCol (V m c main_v87) (V m c main_v88) (V m c main_v108) (V m c main_v110) (V m c main_v96) :=
  (dats m 0 c).arrAt_eq_of_cover 5 _ (fun t _ => flushed_eq m c t) cover

/-- The host line after the region drops the unit axis of the result column. -/
theorem tail_eq (c : Dev nD) :
    (Pipeline.afterTail₀ cfgs (dats m) 0 (V0 m) [hostOps1] c main_v112 : S1600000.Idx → EReal)
      = shapeCast S1600000 (scoreCol (V m c main_v87) (V m c main_v88) (V m c main_v108) (V m c main_v110) (V m c main_v96))
          shapeCasts_S1600000x1_S1600000 := by
  unfold Pipeline.afterTail₀
  show StableHlo.after hostOps1 _ (Proc.devRef .tc main_v112) = _
  after_results
  have hw : Pipeline.withArrays (cfgs 0).spec c (V0 m c) (fun w => (dats m 0 c).arrAt w (cfgs 0).N) (Proc.devRef .tc main_v111)
      = scoreCol (V m c main_v87) (V m c main_v88) (V m c main_v108) (V m c main_v110) (V m c main_v96) :=
    (Pipeline.withArrays_arr (cfgs 0).spec launch0.win.arr_inj c _ _ 5).trans (final m c)
  rw [hw]
  rfl

/-- THE KERNEL'S RUN, read: the result array is the score column with its unit axis dropped, the arguments unchanged. -/
theorem run : θ_run defs (onTc (τ := τ) (main (F := Ideal))) ⟨m, fun _ => 0, ρ⟩ fun r => ∀ c : Dev nD,
      r.2.mem ((c.tc : Thread nD τ).loc main_v112)
        = shapeCast S1600000 (scoreCol (V m c main_v87) (V m c main_v88) (V m c main_v108) (V m c main_v110) (V m c main_v96))
            shapeCasts_S1600000x1_S1600000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v112 (Pipeline.mem_restRefs_of main_v112 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.ScoreValue

end
-- ==== Proof.KernelHost.lean ====
/-
  What the host lines before the region leave in the five arrays the region stages, as terms of the argument arrays.

  A   = the rows of z_self gathered at the edges' target nodes beside the rows gathered at their source nodes (128 lanes);
  B   = the first 64 columns of the z_out rows gathered at the source nodes beside those of the z_in rows gathered at
        the target nodes;
  Wbd = a 128×128 matrix of zeros with the transpose of W_out written at (0, 0) and the transpose of W_in at (64, 64);
  bias = b_out beside b_in, as one row;
  aux = ½·(normalized out-degree at the source + column 64 of the gathered z_out row)
        + ½·(normalized in-degree at the target + column 64 of the gathered z_in row), as a column.
  The gathered rows of z_self, the normalized degrees at the edges' end points and the normalized node indices are the
  very operations the reference applies, so they are named by the reference's stages.
-/
import proofs.«113370_j67104569033152_2_alg».proof.Proof.Gen.KernelIdeal.Frame
import proofs.«113370_j67104569033152_2_alg».proof.Proof.Gen.ReferenceIdeal.Read
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The packed z_self rows. -/
theorem lhs_host (c : Dev nD) :
    (V m c main_v87 : S1600000x128.Idx → EReal) =
      truncf (F := Ideal) .bf16 (concatenate S1600000x128 1 [⟨S1600000x64, Cert.ReferenceIdeal.Read.val_main_v58 (F := Ideal) (m ((c : Thread nD τ).loc main_arg2)) (m ((c : Thread nD τ).loc main_arg7))⟩,
        ⟨S1600000x64, Cert.ReferenceIdeal.Read.val_main_v70 (F := Ideal) (m ((c : Thread nD τ).loc main_arg2)) (m ((c : Thread nD τ).loc main_arg7))⟩] concatenates_S1600000x64_S1600000x64_S1600000x128_d1) bitsLt_bf16_f32 := by
  dsimp only [V, V0]
  simp only [hostOps0, hostOps0_1, hostOps0_2, hostOps0_3, hostOps0_4, List.flatten_cons, List.flatten_nil, List.append_nil, List.cons_append, List.nil_append]
  after_results_simp
  rfl

/-- The packed feature columns of the gathered z_out and z_in rows. -/
theorem rhs_host (c : Dev nD) :
    (V m c main_v88 : S1600000x128.Idx → EReal) =
      concatenate S1600000x128 1 [⟨S1600000x64, extractStridedSlice S1600000x64 ![0, 0] (Host.gather gather_S100000x65_S1600000x1_S1600000x65_1_0_n_n_0_1_165 (m ((c : Thread nD τ).loc main_arg1)) (Cert.ReferenceIdeal.Read.val_main_v83 (F := Ideal) (m ((c : Thread nD τ).loc main_arg7)))) slices_S1600000x65_S1600000x64_0_0⟩,
        ⟨S1600000x64, extractStridedSlice S1600000x64 ![0, 0] (Host.gather gather_S100000x65_S1600000x1_S1600000x65_1_0_n_n_0_1_165 (m ((c : Thread nD τ).loc main_arg0)) (Cert.ReferenceIdeal.Read.val_main_v111 (F := Ideal) (m ((c : Thread nD τ).loc main_arg7)))) slices_S1600000x65_S1600000x64_0_0⟩] concatenates_S1600000x64_S1600000x64_S1600000x128_d1 := by
  dsimp only [V, V0]
  simp only [hostOps0, hostOps0_1, hostOps0_2, hostOps0_3, hostOps0_4, List.flatten_cons, List.flatten_nil, List.append_nil, List.cons_append, List.nil_append]
  after_results_simp
  rfl

/-- The block-diagonal weights. -/
theorem wbd_host (c : Dev nD) :
    (V m c main_v108 : S128x128.Idx → EReal) =
      truncf (F := Ideal) .bf16 (Host.scatter scatter_S128x128_S2_S64x64_01_n_01_0 (fun _ b => b)
        (Host.scatter scatter_S128x128_S2_S64x64_01_n_01_0 (fun _ b => b)
          (broadcastInDim S128x128 ![] bcast_S_S128x128 (constant (F := Ideal) S_ .f32 0x00000000#32))
          (concatenate S2 0 [⟨S1, broadcastInDim S1 ![] bcast_S_S1 (constantI S_ 32 0#32)⟩, ⟨S1, broadcastInDim S1 ![] bcast_S_S1 (constantI S_ 32 0#32)⟩] concatenates_S1_S1_S2_d0)
          (transpose S64x64 [1, 0] (m ((c : Thread nD τ).loc main_arg5)) transposes_S64x64_S64x64_1_0))
        (concatenate S2 0 [⟨S1, broadcastInDim S1 ![] bcast_S_S1 (constantI S_ 32 64#32)⟩, ⟨S1, broadcastInDim S1 ![] bcast_S_S1 (constantI S_ 32 64#32)⟩] concatenates_S1_S1_S2_d0)
        (transpose S64x64 [1, 0] (m ((c : Thread nD τ).loc main_arg3)) transposes_S64x64_S64x64_1_0)) bitsLt_bf16_f32 := by
  dsimp only [V, V0]
  simp only [hostOps0, hostOps0_1, hostOps0_2, hostOps0_3, hostOps0_4, List.flatten_cons, List.flatten_nil, List.append_nil, List.cons_append, List.nil_append]
  after_results_simp
  rfl

/-- The bias row. -/
theorem bias_host (c : Dev nD) :
    (V m c main_v110 : S1x128.Idx → EReal) =
      shapeCast S1x128 (concatenate S128 0 [⟨S64, m ((c : Thread nD τ).loc main_arg6)⟩, ⟨S64, m ((c : Thread nD τ).loc main_arg4)⟩] concatenates_S64_S64_S128_d0) shapeCasts_S128_S1x128 := by
  dsimp only [V, V0]
  simp only [hostOps0, hostOps0_1, hostOps0_2, hostOps0_3, hostOps0_4, List.flatten_cons, List.flatten_nil, List.append_nil, List.cons_append, List.nil_append]
  after_results_simp
  rfl

set_option maxHeartbeats 40000000 in
/-- The auxiliary column. -/
theorem aux_host (c : Dev nD) :
    (V m c main_v96 : S1600000x1.Idx → EReal) =
      shapeCast S1600000x1 (addf
        (mulf (broadcastInDim S1600000 ![] bcast_S_S1600000 (constant (F := Ideal) S_ .f32 0x3F000000#32))
          (addf (Cert.ReferenceIdeal.Read.val_main_v37 (F := Ideal) (m ((c : Thread nD τ).loc main_arg7)))
            (shapeCast S1600000 (extractStridedSlice S1600000x1 ![0, 64] (Host.gather gather_S100000x65_S1600000x1_S1600000x65_1_0_n_n_0_1_165 (m ((c : Thread nD τ).loc main_arg1)) (Cert.ReferenceIdeal.Read.val_main_v83 (F := Ideal) (m ((c : Thread nD τ).loc main_arg7)))) slices_S1600000x65_S1600000x1_0_64) shapeCasts_S1600000x1_S1600000)))
        (mulf (broadcastInDim S1600000 ![] bcast_S_S1600000 (constant (F := Ideal) S_ .f32 0x3F000000#32))
          (addf (Cert.ReferenceIdeal.Read.val_main_v51 (F := Ideal) (m ((c : Thread nD τ).loc main_arg7)))
            (shapeCast S1600000 (extractStridedSlice S1600000x1 ![0, 64] (Host.gather gather_S100000x65_S1600000x1_S1600000x65_1_0_n_n_0_1_165 (m ((c : Thread nD τ).loc main_arg0)) (Cert.ReferenceIdeal.Read.val_main_v111 (F := Ideal) (m ((c : Thread nD τ).loc main_arg7)))) slices_S1600000x65_S1600000x1_0_64) shapeCasts_S1600000x1_S1600000)))) shapeCasts_S1600000_S1600000x1 := by
  dsimp only [V, V0]
  simp only [hostOps0, hostOps0_1, hostOps0_2, hostOps0_3, hostOps0_4, List.flatten_cons, List.flatten_nil, List.append_nil, List.cons_append, List.nil_append]
  after_results_simp
  rfl

end Cert.KernelIdeal.HostSide

end
-- ==== Proof.LibGatherRows.lean ====
/-
  `stablehlo.gather` of a rank-2 table `x : [N, C]` READ AT AN INDEX, in the three forms a row lookup takes:
  whole rows `x[i, :]` (one-component start indices), single entries `x[i, c]` (two-component start indices,
  both axes collapsed) and row segments `x[i, c : c + K]` (two-component start indices, the second axis an offset
  axis of slice size `K`). Each start index component is read as a signed integer and clamped so that the slice fits:
  the row into `[0, N − 1]`, the column into `[0, C − 1]` for a single entry and into `[0, C − K]` for a segment.
-/
import Idealize.ShloMosaic.Lib.ValueIdx

noncomputable section

namespace Idealize.ShloMosaic.GatherRows

open Idealize.ShloMosaic Idealize.ShloMosaic.ValueIdx

/-! ## Whole rows: `x[idx[e, 0], :]`

`stablehlo.gather` with offset_dims `[1]`, collapsed_slice_dims `[0]`, start_index_map `[0]`, slice_sizes `[1, C]` and
index_vector_dim 1 over start indices `[E, 1]`: result element `(e, c)` is `x` at row `idx[e, 0]` (read signed,
clamped into `[0, N − 1]`) and column `c`. -/

section Rows
variable {α : Type}

/-- Those dimension numbers for an operand `[N, C]`, start indices `[E, 1]` and result `[E, C]`; their conditions
    `wf` are decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at row `idx[e, 0]`, read signed and clamped into `[0, N − 1]`, and
    column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowsDims N C E wf).start (ix2 e c) idx 0 + (rowsDims N C E wf).batchCoord (ix2 e c) 0
      + (rowsDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e c) ⟨List.idxOf (0 : Fin 2) (rowsDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N C E wf).start (ix2 e c) idx 1 + (rowsDims N C E wf).batchCoord (ix2 e c) 1
      + (rowsDims N C E wf).offCoord (ix2 e c) 1 = _
    rw [GatherDims.batchCoord_eq_zero _ _ _ List.not_mem_nil]
    have hst : (rowsDims N C E wf).start (ix2 e c) idx 1 = 0 := by
      unfold GatherDims.start
      rw [dif_neg (show (1 : Fin 2) ∉ ([0] : List (Fin 2)) by decide)]
    rw [hst]
    simp only [Nat.add_zero, Nat.zero_add]
    unfold GatherDims.offCoord
    rw [dif_pos ((GatherDims.mem_sKept (rowsDims N C E wf) 1).mpr
      ⟨show (1 : Fin 2) ∉ ([0] : List (Fin 2)) by decide, List.not_mem_nil⟩)]
    rfl

end Rows

/-! ## Single entries: `x[idx[e, 0], idx[e, 1]]`

`stablehlo.gather` with offset_dims `[]`, collapsed_slice_dims `[0, 1]`, start_index_map `[0, 1]`, slice_sizes `[1, 1]`
and index_vector_dim 1 over start indices `[E, 2]`: result element `e` is `x` at row `idx[e, 0]` and column
`idx[e, 1]`, each read signed and clamped into its axis (`[0, N − 1]` and `[0, C − 1]`). -/

section Point
variable {α : Type}

/-- Those dimension numbers for an operand `[N, C]`, start indices `[E, 2]` and result `[E]`; their conditions
    `wf` are decided on a program's literal shapes. -/
abbrev pointDims (N C E : Nat)
    (wf : GatherDims.WF ⟨2, ![N, C]⟩ ⟨2, ![E, 2]⟩ ⟨1, ![E]⟩ [] [0, 1] [] [0, 1] [] 1 ![1, 1]) :
    GatherDims ⟨2, ![N, C]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE ENTRY GATHER READ AT `e`: the table at row `idx[e, 0]`, read signed and clamped into `[0, N − 1]`, and
    column `idx[e, 1]`, read signed and clamped into `[0, C − 1]`. -/
theorem gather_point_apply {N C E w : Nat} (hN : 0 < N) (hC : 0 < C)
    (wf : GatherDims.WF ⟨2, ![N, C]⟩ ⟨2, ![E, 2]⟩ ⟨1, ![E]⟩ [] [0, 1] [] [0, 1] [] 1 ![1, 1])
    (x : (⟨2, ![N, C]⟩ : Shape).Idx → α) (idx : IVec ⟨2, ![E, 2]⟩ w) (e : Fin E) :
    Host.gather (pointDims N C E wf) x idx (ix1 e)
      = x (ix2 ⟨min (idx (ix2 e 0)).toInt.toNat (N - 1), by omega⟩
            ⟨min (idx (ix2 e 1)).toInt.toNat (C - 1), by omega⟩) := by
  unfold Host.gather
  congr 1
  funext a
  refine Fin.ext ?_
  match a with
  | ⟨0, _⟩ =>
    show (pointDims N C E wf).start (ix1 e) idx 0 + (pointDims N C E wf).batchCoord (ix1 e) 0
      + (pointDims N C E wf).offCoord (ix1 e) 0 = _
    rw [GatherDims.batchCoord_eq_zero _ _ _ List.not_mem_nil,
      GatherDims.offCoord_eq_zero _ _ _ (fun h => ((GatherDims.mem_sKept _ _).mp h).1
        (show (0 : Fin 2) ∈ ([0, 1] : List (Fin 2)) by decide))]
    simp only [Nat.add_zero]
    unfold GatherDims.start
    rw [dif_pos (show (0 : Fin 2) ∈ ([0, 1] : List (Fin 2)) by decide)]
    have hsi : (pointDims N C E wf).siIdx (ix1 e) ⟨List.idxOf (0 : Fin 2) (pointDims N C E wf).startIndexMap,
        List.idxOf_lt_length_iff.2 (show (0 : Fin 2) ∈ ([0, 1] : List (Fin 2)) by decide)⟩ = ix2 e 0 := by
      funext b; refine Fin.ext ?_
      match b with
      | ⟨0, _⟩ => rfl
      | ⟨1, _⟩ => rfl
    rw [hsi]
    rfl
  | ⟨1, _⟩ =>
    show (pointDims N C E wf).start (ix1 e) idx 1 + (pointDims N C E wf).batchCoord (ix1 e) 1
      + (pointDims N C E wf).offCoord (ix1 e) 1 = _
    rw [GatherDims.batchCoord_eq_zero _ _ _ List.not_mem_nil,
      GatherDims.offCoord_eq_zero _ _ _ (fun h => ((GatherDims.mem_sKept _ _).mp h).1
        (show (1 : Fin 2) ∈ ([0, 1] : List (Fin 2)) by decide))]
    simp only [Nat.add_zero]
    unfold GatherDims.start
    rw [dif_pos (show (1 : Fin 2) ∈ ([0, 1] : List (Fin 2)) by decide)]
    have hsi : (pointDims N C E wf).siIdx (ix1 e) ⟨List.idxOf (1 : Fin 2) (pointDims N C E wf).startIndexMap,
        List.idxOf_lt_length_iff.2 (show (1 : Fin 2) ∈ ([0, 1] : List (Fin 2)) by decide)⟩ = ix2 e 1 := by
      funext b; refine Fin.ext ?_
      match b with
      | ⟨0, _⟩ => rfl
      | ⟨1, _⟩ => rfl
    rw [hsi]
    rfl

end Point

/-! ## Row segments: `x[idx[e, 0], idx[e, 1] : idx[e, 1] + K]`

`stablehlo.gather` with offset_dims `[1]`, collapsed_slice_dims `[0]`, start_index_map `[0, 1]`, slice_sizes `[1, K]`
and index_vector_dim 1 over start indices `[E, 2]`: result element `(e, k)` is `x` at row `idx[e, 0]` (read signed,
clamped into `[0, N − 1]`) and column `idx[e, 1] + k`, the segment's start read signed and clamped into
`[0, C − K]` so that the whole segment lies in the row. -/

section RowSlice
variable {α : Type}

/-- Those dimension numbers for an operand `[N, C]`, start indices `[E, 2]` and result `[E, K]`; their conditions
    `wf` are decided on a program's literal shapes. -/
abbrev rowSliceDims (N C E K : Nat)
    (wf : GatherDims.WF ⟨2, ![N, C]⟩ ⟨2, ![E, 2]⟩ ⟨2, ![E, K]⟩ [1] [0] [] [0, 1] [] 1 ![1, K]) :
    GatherDims ⟨2, ![N, C]⟩ ⟨2, ![E, 2]⟩ ⟨2, ![E, K]⟩ where
  offsetDims := [1]
  collapsedSliceDims := [0]
  operandBatchingDims := []
  startIndicesBatchingDims := []
  startIndexMap := [0, 1]
  indexVectorDim := 1
  sliceSizes := ![1, K]
  wf := wf

/-- THE SEGMENT GATHER READ AT `(e, k)`: the table at row `idx[e, 0]`, read signed and clamped into `[0, N − 1]`,
    and column `s + k`, where `s` is `idx[e, 1]` read signed and clamped into `[0, C − K]`. -/
theorem gather_rowSlice_apply {N C E K w : Nat} (hN : 0 < N) (hK : K ≤ C)
    (wf : GatherDims.WF ⟨2, ![N, C]⟩ ⟨2, ![E, 2]⟩ ⟨2, ![E, K]⟩ [1] [0] [] [0, 1] [] 1 ![1, K])
    (x : (⟨2, ![N, C]⟩ : Shape).Idx → α) (idx : IVec ⟨2, ![E, 2]⟩ w) (e : Fin E) (k : Fin K) :
    Host.gather (rowSliceDims N C E K wf) x idx (ix2 e k)
      = x (ix2 ⟨min (idx (ix2 e 0)).toInt.toNat (N - 1), by omega⟩
            ⟨min (idx (ix2 e 1)).toInt.toNat (C - K) + k.val, by have := k.isLt; omega⟩) := by
  unfold Host.gather
  congr 1
  funext a
  refine Fin.ext ?_
  match a with
  | ⟨0, _⟩ =>
    show (rowSliceDims N C E K wf).start (ix2 e k) idx 0 + (rowSliceDims N C E K wf).batchCoord (ix2 e k) 0
      + (rowSliceDims N C E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0, 1] : List (Fin 2)) by decide)]
    have hsi : (rowSliceDims N C E K wf).siIdx (ix2 e k) ⟨List.idxOf (0 : Fin 2) (rowSliceDims N C E K wf).startIndexMap,
        List.idxOf_lt_length_iff.2 (show (0 : Fin 2) ∈ ([0, 1] : List (Fin 2)) by decide)⟩ = ix2 e 0 := by
      funext b; refine Fin.ext ?_
      match b with
      | ⟨0, _⟩ => rfl
      | ⟨1, _⟩ => rfl
    rw [hsi]
    rfl
  | ⟨1, _⟩ =>
    show (rowSliceDims N C E K wf).start (ix2 e k) idx 1 + (rowSliceDims N C E K wf).batchCoord (ix2 e k) 1
      + (rowSliceDims N C E K wf).offCoord (ix2 e k) 1 = _
    rw [GatherDims.batchCoord_eq_zero _ _ _ List.not_mem_nil]
    have hoff : (rowSliceDims N C E K wf).offCoord (ix2 e k) 1 = k.val := by
      unfold GatherDims.offCoord
      rw [dif_pos ((GatherDims.mem_sKept (rowSliceDims N C E K wf) 1).mpr
        ⟨show (1 : Fin 2) ∉ ([0] : List (Fin 2)) by decide, List.not_mem_nil⟩)]
      rfl
    rw [hoff]
    simp only [Nat.add_zero]
    unfold GatherDims.start
    rw [dif_pos (show (1 : Fin 2) ∈ ([0, 1] : List (Fin 2)) by decide)]
    have hsi : (rowSliceDims N C E K wf).siIdx (ix2 e k) ⟨List.idxOf (1 : Fin 2) (rowSliceDims N C E K wf).startIndexMap,
        List.idxOf_lt_length_iff.2 (show (1 : Fin 2) ∈ ([0, 1] : List (Fin 2)) by decide)⟩ = ix2 e 1 := by
      funext b; refine Fin.ext ?_
      match b with
      | ⟨0, _⟩ => rfl
      | ⟨1, _⟩ => rfl
    rw [hsi]
    rfl

end RowSlice

end Idealize.ShloMosaic.GatherRows

end
-- ==== Proof.PackedRead.lean ====
/-
  The arrays the host lines pack for the region, read at an index.

  Two 64-lane arrays laid side by side are read in lanes [0, 64) from the first and in lanes [64, 128) from the second; the
  bias row likewise from b_out and b_in; the feature block of a gathered 65-column row is its first 64 columns and its
  trailing scalar is column 64; a row gather reads the table's row at the start index, read signed and clamped to the
  table; and the auxiliary column at edge e is  ½·(r_out e + last_out e) + ½·(r_in e + last_in e).
-/
import proofs.«113370_j67104569033152_2_alg».proof.Proof.Gen.KernelIdeal
import proofs.«113370_j67104569033152_2_alg».proof.Proof.LibColumn
import proofs.«113370_j67104569033152_2_alg».proof.Proof.LibGatherRows
import Idealize.ShloMosaic.Lib.Pipeline.Value
import Idealize.ShloMosaic.Lib.ValueIdx
import Idealize.ShloMosaic.PureOps.Ideal.Laws

noncomputable section

namespace Cert.KernelIdeal.HostRead

open Idealize.ShloMosaic Idealize.ShloMosaic.ValueIdx Idealize.ShloMosaic.GatherRows Cert.KernelIdeal Cert.KernelIdeal.Gen

/-- Lanes [0, 64) of two 64-lane arrays side by side are the first array's. -/
theorem packed_left (P Q : S1600000x64.Idx → EReal) (e : Fin 1600000) (k : Fin 64) :
    concatenate S1600000x128 1 [⟨S1600000x64, P⟩, ⟨S1600000x64, Q⟩] concatenates_S1600000x64_S1600000x64_S1600000x128_d1
      (ix2 e (Fin.castAdd 64 k)) = P (ix2 e k) :=
  concatenate_pair_apply_left (1 : Fin 2) P Q concatenates_S1600000x64_S1600000x64_S1600000x128_d1 (ix2 e (Fin.castAdd 64 k)) rfl (ix2 e k)
    (fun b => match b with
      | ⟨0, _⟩ => rfl
      | ⟨1, _⟩ => rfl)

/-- Lanes [64, 128) are the second array's. -/
theorem packed_right (P Q : S1600000x64.Idx → EReal) (e : Fin 1600000) (k : Fin 64) :
    concatenate S1600000x128 1 [⟨S1600000x64, P⟩, ⟨S1600000x64, Q⟩] concatenates_S1600000x64_S1600000x64_S1600000x128_d1
      (ix2 e (Fin.natAdd 64 k)) = Q (ix2 e k) :=
  concatenate_pair_apply_right (1 : Fin 2) P Q concatenates_S1600000x64_S1600000x64_S1600000x128_d1 (ix2 e (Fin.natAdd 64 k)) rfl rfl (ix2 e k)
    (fun b hb => match b, hb with
      | ⟨0, _⟩, _ => rfl
      | ⟨1, _⟩, hb => absurd rfl hb)
    (by show k.val + 64 = 64 + k.val; omega)

/-- The bias row in lanes [0, 64) is `b_out`. -/
theorem biasRow_left (bo bi : S64.Idx → EReal) (j : Fin 64) :
    shapeCast S1x128 (concatenate S128 0 [⟨S64, bo⟩, ⟨S64, bi⟩] concatenates_S64_S64_S128_d0) shapeCasts_S128_S1x128
      (ix2 (0 : Fin 1) (Fin.castAdd 64 j)) = bo (ix1 j) :=
  (shapeCast_apply _ shapeCasts_S128_S1x128 (ix2 (0 : Fin 1) (Fin.castAdd 64 j)) (ix1 (Fin.castAdd 64 j)) (by
      rw [Shape.rowMajor_val_one, Shape.rowMajor_val_two]
      show (Fin.castAdd 64 j).val = 0 * 128 + (Fin.castAdd 64 j).val; omega)).trans
    (concatenate_pair_apply_left (0 : Fin 1) bo bi concatenates_S64_S64_S128_d0 (ix1 (Fin.castAdd 64 j)) rfl (ix1 j)
      (fun b => match b with | ⟨0, _⟩ => rfl))

/-- The bias row in lanes [64, 128) is `b_in`. -/
theorem biasRow_right (bo bi : S64.Idx → EReal) (j : Fin 64) :
    shapeCast S1x128 (concatenate S128 0 [⟨S64, bo⟩, ⟨S64, bi⟩] concatenates_S64_S64_S128_d0) shapeCasts_S128_S1x128
      (ix2 (0 : Fin 1) (Fin.natAdd 64 j)) = bi (ix1 j) :=
  (shapeCast_apply _ shapeCasts_S128_S1x128 (ix2 (0 : Fin 1) (Fin.natAdd 64 j)) (ix1 (Fin.natAdd 64 j)) (by
      rw [Shape.rowMajor_val_one, Shape.rowMajor_val_two]
      show (Fin.natAdd 64 j).val = 0 * 128 + (Fin.natAdd 64 j).val; omega)).trans
    (concatenate_pair_apply_right (0 : Fin 1) bo bi concatenates_S64_S64_S128_d0 (ix1 (Fin.natAdd 64 j)) rfl rfl (ix1 j)
      (fun b hb => match b, hb with | ⟨0, _⟩, hb => absurd rfl hb)
      (by show j.val + 64 = 64 + j.val; omega))

/-- The feature block of a gathered 65-column row: its first 64 columns. -/
theorem featCols_apply (g : S1600000x65.Idx → EReal) (e : Fin 1600000) (j : Fin 64) :
    extractStridedSlice S1600000x64 ![0, 0] g slices_S1600000x65_S1600000x64_0_0 (ix2 e j) = g (ix2 e ⟨j.val, by omega⟩) :=
  extractStridedSlice_apply ![0, 0] g slices_S1600000x65_S1600000x64_0_0 (ix2 e j) (ix2 e ⟨j.val, by omega⟩) (fun a => match a with
    | ⟨0, _⟩ => by show e.val = 0 + e.val; omega
    | ⟨1, _⟩ => by show j.val = 0 + j.val; omega)

/-- The trailing scalar of a gathered 65-column row, as a vector over the edges: column 64. -/
theorem lastCol_apply (g : S1600000x65.Idx → EReal) (e : Fin 1600000) :
    shapeCast S1600000 (extractStridedSlice S1600000x1 ![0, 64] g slices_S1600000x65_S1600000x1_0_64) shapeCasts_S1600000x1_S1600000 (ix1 e)
      = g (ix2 e (64 : Fin 65)) :=
  (shapeCast_apply _ shapeCasts_S1600000x1_S1600000 (ix1 e) (ix2 e (0 : Fin 1)) (by
      rw [Shape.rowMajor_val_one, Shape.rowMajor_val_two]
      show e.val * 1 + 0 = e.val; omega)).trans
    (extractStridedSlice_apply ![0, 64] g slices_S1600000x65_S1600000x1_0_64 (ix2 e (0 : Fin 1)) (ix2 e (64 : Fin 65)) (fun a => match a with
      | ⟨0, _⟩ => by show e.val = 0 + e.val; omega
      | ⟨1, _⟩ => rfl))

/-- A row gather of a 65-column table at the edges' start indices: the table's row at the index read signed and clamped. -/
theorem rowGather65_apply (x : S100000x65.Idx → EReal) (idx : IVec S1600000x1 32) (e : Fin 1600000) (c : Fin 65) :
    Host.gather gather_S100000x65_S1600000x1_S1600000x65_1_0_n_n_0_1_165 x idx (ix2 e c)
      = x (ix2 ⟨min (idx (ix2 e 0)).toInt.toNat (100000 - 1), by omega⟩ c) :=
  gather_rows_apply (N := 100000) (C := 65) (E := 1600000) (by norm_num) (by decide) x idx e c

/-- The auxiliary column at edge `e`. -/
theorem auxCol_apply (ro ri : S1600000.Idx → EReal) (go gi : S1600000x65.Idx → EReal) (e : Fin 1600000) :
    shapeCast S1600000x1 (addf (F := Ideal)
        (mulf (broadcastInDim S1600000 ![] bcast_S_S1600000 (constant (F := Ideal) S_ .f32 0x3F000000#32))
          (addf ro (shapeCast S1600000 (extractStridedSlice S1600000x1 ![0, 64] go slices_S1600000x65_S1600000x1_0_64) shapeCasts_S1600000x1_S1600000)))
        (mulf (broadcastInDim S1600000 ![] bcast_S_S1600000 (constant (F := Ideal) S_ .f32 0x3F000000#32))
          (addf ri (shapeCast S1600000 (extractStridedSlice S1600000x1 ![0, 64] gi slices_S1600000x65_S1600000x1_0_64) shapeCasts_S1600000x1_S1600000))))
      shapeCasts_S1600000_S1600000x1 (ix2 e (0 : Fin 1))
      = Ideal.ofBits .f32 0x3F000000#32 * (ro (ix1 e) + go (ix2 e (64 : Fin 65)))
        + Ideal.ofBits .f32 0x3F000000#32 * (ri (ix1 e) + gi (ix2 e (64 : Fin 65))) := by
  refine (Cert.LibColumn.shapeCast_a_a1_apply _ shapeCasts_S1600000_S1600000x1 e (0 : Fin 1)).trans ?_
  show Ideal.ofBits .f32 0x3F000000#32 * (ro (ix1 e) + shapeCast S1600000 (extractStridedSlice S1600000x1 ![0, 64] go slices_S1600000x65_S1600000x1_0_64) shapeCasts_S1600000x1_S1600000 (ix1 e))
    + Ideal.ofBits .f32 0x3F000000#32 * (ri (ix1 e) + shapeCast S1600000 (extractStridedSlice S1600000x1 ![0, 64] gi slices_S1600000x65_S1600000x1_0_64) shapeCasts_S1600000x1_S1600000 (ix1 e)) = _
  rw [lastCol_apply, lastCol_apply]

end Cert.KernelIdeal.HostRead

end
-- ==== Proof.LibScatterWindow.lean ====
/-
  A host scatter read at one index.

  `Host.scatter` is a left fold, over the update indices in row-major order, of conditional point updates: update
  index `j` replaces the element at its result index (when that index is inside the operand) by the body applied to
  the element and the update's element. Read at ONE operand index `i'`, the fold only sees the update indices that
  land on `i'`: none of them — the operand's element stays (`scatter_apply_of_miss`); exactly one — the body is applied
  once, to the operand's element and that update's element (`scatter_apply_of_hit`, and `scatter_set_apply_of_hit` for
  the body that returns the update).

  The window form: a rank-2 update `[a, b]` written whole at ONE start index `(r0, c0)` into a rank-2 operand `[A, B]`,
  the window inside the operand. Update index `(j0, j1)` lands at `(r0 + j0, c0 + j1)` (`window_resultIdx?`), so the
  result at `(p, q)` is the update at `(p - r0, q - c0)` inside the window and the operand outside it
  (`scatter_window_apply`).
-/
import Idealize.ShloMosaic.PureOps.ShapeOps
import Idealize.ShloMosaic.Lib.ValueIdx

namespace Idealize.ShloMosaic.ScatterWindow

open Idealize.ShloMosaic Idealize.ShloMosaic.ValueIdx

section Fold
variable {s si u : Shape} {α : Type} {w : Nat}

/-- One step of the scatter's fold: the update at row-major position `n` replaces the element at its result index by
    the body `f` of that element and the update's element, and is dropped when it has no result index. -/
abbrev step (d : ScatterDims s si u) (f : α → α → α) (idx : IVec si w) (upd : u.Idx → α) :
    (s.Idx → α) → Fin u.numel → (s.Idx → α) := fun r n =>
  match d.resultIdx? (u.rowMajor.symm n) idx with
  | some i => fun i' => if i' = i then f (r i) (upd (u.rowMajor.symm n)) else r i'
  | none => r

/-- The scatter is the left fold of `step` over the row-major positions of the updates. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update does not land on `i'` leaves the element at `i'` as it was. -/
theorem step_apply_of_ne (d : ScatterDims s si u) (f : α → α → α) (idx : IVec si w) (upd : u.Idx → α)
    (r : s.Idx → α) (n : Fin u.numel) (i' : s.Idx) (h : d.resultIdx? (u.rowMajor.symm n) idx ≠ some i') :
    step d f idx upd r n i' = r i' := by
  unfold step
  cases hr : d.resultIdx? (u.rowMajor.symm n) idx with
  | none => rfl
  | some i =>
    have hne : i' ≠ i := fun e => h (by rw [hr, e])
    exact if_neg hne

/-- A step whose update lands on `i'` puts there the body of the old element and the update's element. -/
theorem step_apply_of_eq (d : ScatterDims s si u) (f : α → α → α) (idx : IVec si w) (upd : u.Idx → α)
    (r : s.Idx → α) (n : Fin u.numel) (i' : s.Idx) (h : d.resultIdx? (u.rowMajor.symm n) idx = some i') :
    step d f idx upd r n i' = f (r i') (upd (u.rowMajor.symm n)) := by
  unfold step
  rw [h]
  exact if_pos rfl

/-- Folding steps none of which lands on `i'` leaves the element at `i'` as it was. -/
theorem foldl_apply_of_miss (d : ScatterDims s si u) (f : α → α → α) (idx : IVec si w) (upd : u.Idx → α) (i' : s.Idx) :
    ∀ (l : List (Fin u.numel)) (r : s.Idx → α),
      (∀ n ∈ l, d.resultIdx? (u.rowMajor.symm n) idx ≠ some i') → l.foldl (step d f idx upd) r i' = r i' := by
  intro l
  induction l with
  | nil => intro r _; rfl
  | cons n t ih =>
    intro r h
    rw [List.foldl_cons, ih _ (fun m hm => h m (List.mem_cons_of_mem _ hm)),
      step_apply_of_ne d f idx upd r n i' (h n List.mem_cons_self)]

/-- Folding steps over positions without repeats, exactly one of which (`n0`) lands on `i'`, applies the body once
    there: to the old element and the update's element at `n0`. -/
theorem foldl_apply_of_hit (d : ScatterDims s si u) (f : α → α → α) (idx : IVec si w) (upd : u.Idx → α) (i' : s.Idx)
    (n0 : Fin u.numel) (h0 : d.resultIdx? (u.rowMajor.symm n0) idx = some i') :
    ∀ (l : List (Fin u.numel)) (r : s.Idx → α), l.Nodup → n0 ∈ l →
      (∀ n ∈ l, d.resultIdx? (u.rowMajor.symm n) idx = some i' → n = n0) →
      l.foldl (step d f idx upd) r i' = f (r i') (upd (u.rowMajor.symm n0)) := by
  intro l
  induction l with
  | nil => intro r _ hm _; exact absurd hm List.not_mem_nil
  | cons n t ih =>
    intro r hnd hm huniq
    rw [List.foldl_cons]
    have hnd' := List.nodup_cons.1 hnd
    by_cases hn : n = n0
    · subst hn
      rw [foldl_apply_of_miss d f idx upd i' t _ (fun m hmt e =>
        hnd'.1 (huniq m (List.mem_cons_of_mem _ hmt) e ▸ hmt)), step_apply_of_eq d f idx upd r n i' h0]
    · have hmt : n0 ∈ t := (List.mem_cons.1 hm).resolve_left (fun e => hn e.symm)
      rw [ih _ hnd'.2 hmt (fun m hm' => huniq m (List.mem_cons_of_mem _ hm')),
        step_apply_of_ne d f idx upd r n i' (fun e => hn (huniq n List.mem_cons_self e))]

/-- NO UPDATE LANDS ON `i'`: the scatter's result there is the operand's element, whatever the body. -/
theorem scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [scatter_eq_foldl]
  exact foldl_apply_of_miss d f idx upd i' _ x (fun n _ => h _)

/-- EXACTLY ONE UPDATE INDEX `j0` LANDS ON `i'`: the scatter's result there is the body of the operand's element and
    the update's element at `j0`. -/
theorem scatter_apply_of_hit (d : ScatterDims s si u) (f : α → α → α) (x : s.Idx → α) (idx : IVec si w)
    (upd : u.Idx → α) (i' : s.Idx) (j0 : u.Idx) (h0 : d.resultIdx? j0 idx = some i')
    (huniq : ∀ j : u.Idx, d.resultIdx? j idx = some i' → j = j0) :
    Host.scatter d f x idx upd i' = f (x i') (upd j0) := by
  rw [scatter_eq_foldl]
  have e0 : u.rowMajor.symm (u.rowMajor j0) = j0 := u.rowMajor.symm_apply_apply j0
  rw [foldl_apply_of_hit d f idx upd i' (u.rowMajor j0) (by rw [e0]; exact h0) _ x (List.nodup_finRange _)
    (List.mem_finRange _) (fun n _ hn => by
      have := huniq _ hn
      rw [← this]; exact (u.rowMajor.apply_symm_apply n).symm), e0]

/-- The same for the body that returns the update (a scatter that SETS), with no update landing on `i'`. -/
theorem scatter_set_apply_of_miss (d : ScatterDims s si u) (x : s.Idx → α) (idx : IVec si w)
    (upd : u.Idx → α) (i' : s.Idx) (h : ∀ j : u.Idx, d.resultIdx? j idx ≠ some i') :
    Host.scatter d (fun _ b => b) x idx upd i' = x i' :=
  scatter_apply_of_miss d _ x idx upd i' h

/-- The same for the body that returns the update, with exactly one update index `j0` landing on `i'`: the result
    there is the update's element at `j0`. -/
theorem scatter_set_apply_of_hit (d : ScatterDims s si u) (x : s.Idx → α) (idx : IVec si w)
    (upd : u.Idx → α) (i' : s.Idx) (j0 : u.Idx) (h0 : d.resultIdx? j0 idx = some i')
    (huniq : ∀ j : u.Idx, d.resultIdx? j idx = some i' → j = j0) :
    Host.scatter d (fun _ b => b) x idx upd i' = upd j0 :=
  scatter_apply_of_hit d _ x idx upd i' j0 h0 huniq

end Fold

section Window
variable {α : Type}

/-- The dimension numbers of a rank-2 update `[a, b]` written whole at ONE start index (a 2-vector) into a rank-2
    operand `[A, B]`: both update axes are window axes, no operand axis is inserted, the start index's two components
    go to the operand's axes `0` and `1`. Their conditions `wf` are decided on a program's literal shapes. -/
abbrev windowDims (A B a b : Nat)
    (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

variable {A B a b w : Nat} (wf : ScatterDims.WF ⟨2, ![A, B]⟩ ⟨1, ![2]⟩ ⟨2, ![a, b]⟩ [0, 1] [] [0, 1] 0)

/-- No operand axis is inserted: both are kept. -/
theorem mem_sKept (c : Fin 2) : c ∈ (windowDims A B a b wf).sKept :=
  List.mem_filter.2 ⟨List.mem_finRange _, by simp⟩

/-- The window's start on operand axis `0` is the start index's component `0`, read signed. -/
theorem window_start0 (idx : IVec ⟨1, ![2]⟩ w) (j : (⟨2, ![a, b]⟩ : Shape).Idx) :
    (windowDims A B a b wf).start j idx 0 = (idx (ix1 0)).toInt := by
  unfold ScatterDims.start
  rw [dif_pos (show (0 : Fin 2) ∈ (windowDims A B a b wf).scatterDimsToOperandDims from List.mem_cons_self)]
  congr 2
  funext c
  match c with
  | ⟨0, _⟩ => rfl

/-- The window's start on operand axis `1` is the start index's component `1`, read signed. -/
theorem window_start1 (idx : IVec ⟨1, ![2]⟩ w) (j : (⟨2, ![a, b]⟩ : Shape).Idx) :
    (windowDims A B a b wf).start j idx 1 = (idx (ix1 1)).toInt := by
  unfold ScatterDims.start
  rw [dif_pos (show (1 : Fin 2) ∈ (windowDims A B a b wf).scatterDimsToOperandDims from List.mem_cons_of_mem _ List.mem_cons_self)]
  congr 2
  funext c
  match c with
  | ⟨0, _⟩ => rfl

/-- The window coordinate on operand axis `0` is the update index's coordinate `0`. -/
theorem window_window0 (j : (⟨2, ![a, b]⟩ : Shape).Idx) : (windowDims A B a b wf).window j 0 = (j 0).val := by
  unfold ScatterDims.window
  rw [dif_pos (mem_sKept wf 0)]
  rfl

/-- The window coordinate on operand axis `1` is the update index's coordinate `1`. -/
theorem window_window1 (j : (⟨2, ![a, b]⟩ : Shape).Idx) : (windowDims A B a b wf).window j 1 = (j 1).val := by
  unfold ScatterDims.window
  rw [dif_pos (mem_sKept wf 1)]
  rfl

/-- UPDATE INDEX `(j0, j1)` LANDS AT `(r0 + j0, c0 + j1)`: with the start index `(r0, c0)` (its components read signed)
    and the window inside the operand (`r0 + a ≤ A`, `c0 + b ≤ B`), no update is dropped. -/
theorem window_resultIdx? (idx : IVec ⟨1, ![2]⟩ w) (r0 c0 : Nat)
    (hr : (idx (ix1 0)).toInt = (r0 : Int)) (hc : (idx (ix1 1)).toInt = (c0 : Int))
    (hA : r0 + a ≤ A) (hB : c0 + b ≤ B) (j : (⟨2, ![a, b]⟩ : Shape).Idx) :
    (windowDims A B a b wf).resultIdx? j idx
      = some (ix2 ⟨r0 + (j 0).val, by have := idx2_lt0 j; omega⟩ ⟨c0 + (j 1).val, by have := idx2_lt1 j; omega⟩) := by
  have h0 := idx2_lt0 j
  have h1 := idx2_lt1 j
  have h : ∀ c : Fin 2, 0 ≤ (windowDims A B a b wf).start j idx c + (windowDims A B a b wf).window j c ∧
      (windowDims A B a b wf).start j idx c + (windowDims A B a b wf).window j c
        < ((⟨2, ![A, B]⟩ : Shape).size c : Int) := by
    intro c
    match c with
    | ⟨0, _⟩ =>
      show 0 ≤ (windowDims A B a b wf).start j idx 0 + (windowDims A B a b wf).window j 0 ∧
        (windowDims A B a b wf).start j idx 0 + (windowDims A B a b wf).window j 0 < (A : Int)
      rw [window_start0, window_window0, hr]; omega
    | ⟨1, _⟩ =>
      show 0 ≤ (windowDims A B a b wf).start j idx 1 + (windowDims A B a b wf).window j 1 ∧
        (windowDims A B a b wf).start j idx 1 + (windowDims A B a b wf).window j 1 < (B : Int)
      rw [window_start1, window_window1, hc]; omega
  unfold ScatterDims.resultIdx?
  rw [dif_pos h]
  congr 1
  funext c
  match c with
  | ⟨0, _⟩ =>
    refine Fin.ext ?_
    show ((windowDims A B a b wf).start j idx 0 + (windowDims A B a b wf).window j 0).toNat = r0 + (j 0).val
    rw [window_start0, window_window0, hr]; omega
  | ⟨1, _⟩ =>
    refine Fin.ext ?_
    show ((windowDims A B a b wf).start j idx 1 + (windowDims A B a b wf).window j 1).toNat = c0 + (j 1).val
    rw [window_start1, window_window1, hc]; omega

/-- THE WINDOW SCATTER READ AT `(p, q)`: an update `[a, b]` set at the one start index `(r0, c0)` (the components of
    `idx`, read signed), the window inside the operand `[A, B]`. Inside the window
    `r0 ≤ p < r0 + a`, `c0 ≤ q < c0 + b` the result is the update at `(p - r0, q - c0)`; outside it is the operand. -/
theorem scatter_window_apply (x : (⟨2, ![A, B]⟩ : Shape).Idx → α) (idx : IVec ⟨1, ![2]⟩ w)
    (upd : (⟨2, ![a, b]⟩ : Shape).Idx → α) (r0 c0 : Nat)
    (hr : (idx (ix1 0)).toInt = (r0 : Int)) (hc : (idx (ix1 1)).toInt = (c0 : Int))
    (hA : r0 + a ≤ A) (hB : c0 + b ≤ B) (p : Fin A) (q : Fin B) :
    Host.scatter (windowDims A B a b wf) (fun _ v => v) x idx upd (ix2 p q)
      = if h : r0 ≤ p.val ∧ p.val < r0 + a ∧ c0 ≤ q.val ∧ q.val < c0 + b then
          upd (ix2 ⟨p.val - r0, by omega⟩ ⟨q.val - c0, by omega⟩)
        else x (ix2 p q) := by
  by_cases h : r0 ≤ p.val ∧ p.val < r0 + a ∧ c0 ≤ q.val ∧ q.val < c0 + b
  · rw [dif_pos h]
    refine scatter_set_apply_of_hit _ x idx upd _ _ ?_ ?_
    · rw [window_resultIdx? wf idx r0 c0 hr hc hA hB]
      congr 1
      funext c
      match c with
      | ⟨0, _⟩ => exact Fin.ext (show r0 + (p.val - r0) = p.val by omega)
      | ⟨1, _⟩ => exact Fin.ext (show c0 + (q.val - c0) = q.val by omega)
    · intro j hj
      rw [window_resultIdx? wf idx r0 c0 hr hc hA hB] at hj
      have e := Option.some.inj hj
      have e0 : r0 + (j 0).val = p.val := congrArg (fun i : (⟨2, ![A, B]⟩ : Shape).Idx => (i 0).val) e
      have e1 : c0 + (j 1).val = q.val := congrArg (fun i : (⟨2, ![A, B]⟩ : Shape).Idx => (i 1).val) e
      rw [eq_ix2 j]
      funext c
      match c with
      | ⟨0, _⟩ => exact Fin.ext (show (j 0).val = p.val - r0 by omega)
      | ⟨1, _⟩ => exact Fin.ext (show (j 1).val = q.val - c0 by omega)
  · rw [dif_neg h]
    refine scatter_set_apply_of_miss _ x idx upd _ (fun j hj => h ?_)
    rw [window_resultIdx? wf idx r0 c0 hr hc hA hB] at hj
    have e := Option.some.inj hj
    have e0 : r0 + (j 0).val = p.val := congrArg (fun i : (⟨2, ![A, B]⟩ : Shape).Idx => (i 0).val) e
    have e1 : c0 + (j 1).val = q.val := congrArg (fun i : (⟨2, ![A, B]⟩ : Shape).Idx => (i 1).val) e
    have h0 := idx2_lt0 j
    have h1 := idx2_lt1 j
    omega

/-- A 32-bit word below `2 ^ 31`, read signed, is the natural number it was made from. -/
theorem toInt_ofNat32 {n : Nat} (h : n < 2 ^ 31) : (BitVec.ofNat 32 n).toInt = (n : Int) := by
  rw [BitVec.toInt_eq_toNat_cond, BitVec.toNat_ofNat, Nat.mod_eq_of_lt (by omega)]
  split <;> omega

/-- The window scatter read at `(p, q)`, the start index given as the two 32-bit words `r0` and `c0` (below `2 ^ 31`). -/
theorem scatter_window_apply_ofNat (x : (⟨2, ![A, B]⟩ : Shape).Idx → α) (idx : IVec ⟨1, ![2]⟩ 32)
    (upd : (⟨2, ![a, b]⟩ : Shape).Idx → α) (r0 c0 : Nat)
    (hr : idx (ix1 0) = BitVec.ofNat 32 r0) (hc : idx (ix1 1) = BitVec.ofNat 32 c0)
    (hr31 : r0 < 2 ^ 31) (hc31 : c0 < 2 ^ 31)
    (hA : r0 + a ≤ A) (hB : c0 + b ≤ B) (p : Fin A) (q : Fin B) :
    Host.scatter (windowDims A B a b wf) (fun _ v => v) x idx upd (ix2 p q)
      = if h : r0 ≤ p.val ∧ p.val < r0 + a ∧ c0 ≤ q.val ∧ q.val < c0 + b then
          upd (ix2 ⟨p.val - r0, by omega⟩ ⟨q.val - c0, by omega⟩)
        else x (ix2 p q) :=
  scatter_window_apply wf x idx upd r0 c0 (by rw [hr]; exact toInt_ofNat32 hr31) (by rw [hc]; exact toInt_ofNat32 hc31)
    hA hB p q

end Window

end Idealize.ShloMosaic.ScatterWindow
-- ==== Proof.BlockWeights.lean ====
/-
  The block-diagonal weight matrix read at an entry.

  A 128×128 matrix of zeros with the transpose of W_out written over rows and columns [0, 64) and then the transpose of
  W_in written over rows and columns [64, 128) has, at (k, j):  W_out (j, k) when both are below 64,  W_in (j − 64, k − 64)
  when both are at least 64, and zero when one is below and the other is not.
-/
import proofs.«113370_j67104569033152_2_alg».proof.Proof.Gen.KernelIdeal
import proofs.«113370_j67104569033152_2_alg».proof.Proof.LibScatterWindow
import Idealize.ShloMosaic.Lib.Pipeline.Value
import Idealize.ShloMosaic.Lib.ValueIdx
import Idealize.ShloMosaic.PureOps.Ideal.Laws

noncomputable section

namespace Cert.KernelIdeal.HostRead

open Idealize.ShloMosaic Idealize.ShloMosaic.ValueIdx Idealize.ShloMosaic.ScatterWindow Cert.KernelIdeal Cert.KernelIdeal.Gen

/-- The matrix, as the host lines build it from `W_out` (`wo`) and `W_in` (`wi`). -/
def blockWeights (wo wi : S64x64.Idx → EReal) : S128x128.Idx → EReal :=
  truncf (F := Ideal) .bf16 (Host.scatter scatter_S128x128_S2_S64x64_01_n_01_0 (fun _ b => b)
    (Host.scatter scatter_S128x128_S2_S64x64_01_n_01_0 (fun _ b => b)
      (broadcastInDim S128x128 ![] bcast_S_S128x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (transpose S64x64 [1, 0] wo transposes_S64x64_S64x64_1_0))
    (concatenate S2 0 [⟨S1, broadcastInDim S1 ![] bcast_S_S1 (constantI S_ 32 64#32)⟩, ⟨S1, broadcastInDim S1 ![] bcast_S_S1 (constantI S_ 32 64#32)⟩] concatenates_S1_S1_S2_d0)
    (transpose S64x64 [1, 0] wi transposes_S64x64_S64x64_1_0)) bitsLt_bf16_f32

/-- A transposed 64×64 matrix at (a, b) is the matrix at (b, a). -/
theorem transposed_apply (x : S64x64.Idx → EReal) (a b : Fin 64) :
    transpose S64x64 [1, 0] x transposes_S64x64_S64x64_1_0 (ix2 a b) = x (ix2 b a) :=
  transpose_apply [1, 0] x transposes_S64x64_S64x64_1_0 (ix2 a b) (ix2 b a) (fun c => match c with
    | ⟨0, _⟩ => rfl
    | ⟨1, _⟩ => rfl)

/-- The start index (w, w) built from two splat words: component 0. -/
theorem startIdx_0 (w : BitVec 32) :
    (concatenate S2 0 [⟨S1, broadcastInDim S1 ![] bcast_S_S1 (constantI S_ 32 w)⟩, ⟨S1, broadcastInDim S1 ![] bcast_S_S1 (constantI S_ 32 w)⟩] concatenates_S1_S1_S2_d0 : IVec S2 32)
      (ix1 (0 : Fin 2)) = w :=
  (concatenate_pair_apply_left (t := S2) (s₁ := S1) (s₂ := S1) (0 : Fin 1) _ _ concatenates_S1_S1_S2_d0 (ix1 (0 : Fin 2)) rfl (ix1 (0 : Fin 1))
    (fun b => match b with | ⟨0, _⟩ => rfl)).trans rfl
/-- … and component 1. -/
theorem startIdx_1 (w : BitVec 32) :
    (concatenate S2 0 [⟨S1, broadcastInDim S1 ![] bcast_S_S1 (constantI S_ 32 w)⟩, ⟨S1, broadcastInDim S1 ![] bcast_S_S1 (constantI S_ 32 w)⟩] concatenates_S1_S1_S2_d0 : IVec S2 32)
      (ix1 (1 : Fin 2)) = w :=
  (concatenate_pair_apply_right (t := S2) (s₁ := S1) (s₂ := S1) (0 : Fin 1) _ _ concatenates_S1_S1_S2_d0 (ix1 (1 : Fin 2)) rfl rfl (ix1 (0 : Fin 1))
    (fun b hb => match b, hb with | ⟨0, _⟩, hb => absurd rfl hb)
    (by show (0 : ℕ) + 1 = 1; rfl)).trans rfl

theorem dims_eq : scatter_S128x128_S2_S64x64_01_n_01_0 = windowDims 128 128 64 64 (by decide) := rfl

theorem blockWeights_apply (wo wi : S64x64.Idx → EReal) (k j : Fin 128) :
    blockWeights wo wi (ix2 k j)
      = if h : 64 ≤ k.val ∧ k.val < 64 + 64 ∧ 64 ≤ j.val ∧ j.val < 64 + 64 then wi (ix2 ⟨j.val - 64, by omega⟩ ⟨k.val - 64, by omega⟩)
        else if h' : 0 ≤ k.val ∧ k.val < 0 + 64 ∧ 0 ≤ j.val ∧ j.val < 0 + 64 then wo (ix2 ⟨j.val - 0, by omega⟩ ⟨k.val - 0, by omega⟩)
        else 0 := by
  unfold blockWeights
  rw [truncf_apply, dims_eq]
  rw [scatter_window_apply_ofNat (by decide) _ _ _ 64 64 (startIdx_0 _) (startIdx_1 _) (by norm_num) (by norm_num) (by omega) (by omega) k j]
  split
  · exact transposed_apply wi _ _
  · rw [scatter_window_apply_ofNat (by decide) _ _ _ 0 0 (startIdx_0 _) (startIdx_1 _) (by norm_num) (by norm_num) (by omega) (by omega) k j]
    split
    · exact transposed_apply wo _ _
    · exact Ideal.ofBits_zero_f32

theorem blockWeights_11 (wo wi : S64x64.Idx → EReal) (k j : Fin 64) :
    blockWeights wo wi (ix2 (Fin.castAdd 64 k) (Fin.castAdd 64 j)) = wo (ix2 j k) := by
  rw [blockWeights_apply, dif_neg (by simp only [Fin.coe_castAdd]; omega), dif_pos (by simp only [Fin.coe_castAdd]; omega)]
  rfl
theorem blockWeights_21 (wo wi : S64x64.Idx → EReal) (k j : Fin 64) :
    blockWeights wo wi (ix2 (Fin.natAdd 64 k) (Fin.castAdd 64 j)) = 0 := by
  rw [blockWeights_apply, dif_neg (by simp only [Fin.coe_castAdd, Fin.coe_natAdd]; omega), dif_neg (by simp only [Fin.coe_castAdd, Fin.coe_natAdd]; omega)]
theorem blockWeights_12 (wo wi : S64x64.Idx → EReal) (k j : Fin 64) :
    blockWeights wo wi (ix2 (Fin.castAdd 64 k) (Fin.natAdd 64 j)) = 0 := by
  rw [blockWeights_apply, dif_neg (by simp only [Fin.coe_castAdd, Fin.coe_natAdd]; omega), dif_neg (by simp only [Fin.coe_castAdd, Fin.coe_natAdd]; omega)]
theorem blockWeights_22 (wo wi : S64x64.Idx → EReal) (k j : Fin 64) :
    blockWeights wo wi (ix2 (Fin.natAdd 64 k) (Fin.natAdd 64 j)) = wi (ix2 j k) := by
  rw [blockWeights_apply, dif_pos (by simp only [Fin.coe_natAdd]; omega)]
  exact congrArg wi (funext fun a => match a with
    | ⟨0, _⟩ => Fin.ext (by show (64 + j.val) - 64 = j.val; omega)
    | ⟨1, _⟩ => Fin.ext (by show (64 + k.val) - 64 = k.val; omega))

end Cert.KernelIdeal.HostRead

end
-- ==== Proof.RefRead.lean ====
/-
  The reference's score read at one edge.

  The reference gathers, for edge e with source row s and target row d (the edge's node indices, negative ones wrapped,
  read signed and clamped to the table): column 64 and columns [0, 64) of row s of z_out and of row d of z_in, directly
  through two-component start indices (row, 64) and (row, 0).  With the gathered z_self rows sd = z_self[d], ss = z_self[s]
  and the normalized degrees r_out e, r_in e, its value at e is the logistic of
     ((r_out e + z_out(s, 64))·½ + (Σ_j z_out(s, j) · (Σ_k sd k · W_out(j, k) + b_out j))·½ + (r_in e + z_in(d, 64))·½)
       + (Σ_j (Σ_k ss k · W_in(j, k) + b_in j) · z_in(d, j))·½.
-/
import proofs.«113370_j67104569033152_2_alg».proof.Proof.Gen.ReferenceIdeal.Read
import proofs.«113370_j67104569033152_2_alg».proof.Proof.LibGatherRows
import Idealize.ShloMosaic.Lib.Pipeline.Value
import Idealize.ShloMosaic.Lib.ValueIdx
import Idealize.ShloMosaic.PureOps.Ideal.Laws

noncomputable section

namespace Cert.ReferenceIdeal.ScoreValue

open Idealize.ShloMosaic Idealize.ShloMosaic.ValueIdx Idealize.ShloMosaic.GatherRows Cert.ReferenceIdeal Cert.ReferenceIdeal.Gen Cert.ReferenceIdeal.Read

variable (x0 x1 : (⟨S100000x65, .f32⟩ : BufTy).Contents (Elt Ideal)) (x2 : (⟨S100000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S2x1600000, .i32⟩ : BufTy).Contents (Elt Ideal))

/-- The table row edge `e` reads at its source node: the normalized source index, read signed and clamped. -/
def srcRow (e : Fin 1600000) : Fin 100000 :=
  ⟨min ((val_main_v83 (F := Ideal) x7 : IVec S1600000x1 32) (ix2 e 0)).toInt.toNat (100000 - 1), by omega⟩
/-- The table row edge `e` reads at its target node. -/
def dstRow (e : Fin 1600000) : Fin 100000 :=
  ⟨min ((val_main_v111 (F := Ideal) x7 : IVec S1600000x1 32) (ix2 e 0)).toInt.toNat (100000 - 1), by omega⟩

/-- A two-column index array read in column 0 is its first column. -/
theorem pairIdx_col0 (u v : IVec S1600000x1 32) (e : Fin 1600000) :
    (concatenate S1600000x2 1 [⟨S1600000x1, u⟩, ⟨S1600000x1, v⟩] concatenates_S1600000x1_S1600000x1_S1600000x2_d1 : IVec S1600000x2 32) (ix2 e 0)
      = u (ix2 e 0) :=
  concatenate_pair_apply_left (t := S1600000x2) (s₁ := S1600000x1) (s₂ := S1600000x1) (1 : Fin 2) u v concatenates_S1600000x1_S1600000x1_S1600000x2_d1 (ix2 e 0) rfl (ix2 e 0)
    (fun b => match b with
      | ⟨0, _⟩ => rfl
      | ⟨1, _⟩ => rfl)
/-- … and in column 1 its second. -/
theorem pairIdx_col1 (u v : IVec S1600000x1 32) (e : Fin 1600000) :
    (concatenate S1600000x2 1 [⟨S1600000x1, u⟩, ⟨S1600000x1, v⟩] concatenates_S1600000x1_S1600000x1_S1600000x2_d1 : IVec S1600000x2 32) (ix2 e 1)
      = v (ix2 e 0) :=
  concatenate_pair_apply_right (t := S1600000x2) (s₁ := S1600000x1) (s₂ := S1600000x1) (1 : Fin 2) u v concatenates_S1600000x1_S1600000x1_S1600000x2_d1 (ix2 e 1) rfl rfl (ix2 e 0)
    (fun b hb => match b, hb with
      | ⟨0, _⟩, _ => rfl
      | ⟨1, _⟩, hb => absurd rfl hb)
    (by show (0 : ℕ) + 1 = 1; rfl)

/-- Column 64 of the source row of z_out. -/
theorem last_out (e : Fin 1600000) : val_main_v86 (F := Ideal) x1 x7 (ix1 e) = x1 (ix2 (srcRow x7 e) (64 : Fin 65)) := by
  unfold val_main_v86
  refine (gather_point_apply (N := 100000) (C := 65) (E := 1600000) (by norm_num) (by norm_num) (by decide) x1 (val_main_v85 (F := Ideal) x7) e).trans ?_
  refine congrArg x1 (funext fun a => Fin.ext ?_)
  match a with
  | ⟨0, _⟩ => exact congrArg (fun z : BitVec 32 => min z.toInt.toNat (100000 - 1)) (pairIdx_col0 _ _ e)
  | ⟨1, _⟩ => exact (congrArg (fun z : BitVec 32 => min z.toInt.toNat (65 - 1)) (pairIdx_col1 _ _ e)).trans rfl

/-- Column 64 of the target row of z_in. -/
theorem last_in (e : Fin 1600000) : val_main_v114 (F := Ideal) x0 x7 (ix1 e) = x0 (ix2 (dstRow x7 e) (64 : Fin 65)) := by
  unfold val_main_v114
  refine (gather_point_apply (N := 100000) (C := 65) (E := 1600000) (by norm_num) (by norm_num) (by decide) x0 (val_main_v113 (F := Ideal) x7) e).trans ?_
  refine congrArg x0 (funext fun a => Fin.ext ?_)
  match a with
  | ⟨0, _⟩ => exact congrArg (fun z : BitVec 32 => min z.toInt.toNat (100000 - 1)) (pairIdx_col0 _ _ e)
  | ⟨1, _⟩ => exact (congrArg (fun z : BitVec 32 => min z.toInt.toNat (65 - 1)) (pairIdx_col1 _ _ e)).trans rfl

/-- Columns [0, 64) of the source row of z_out. -/
theorem feat_out (e : Fin 1600000) (j : Fin 64) :
    val_main_v98 (F := Ideal) x1 x7 (ix2 e j) = x1 (ix2 (srcRow x7 e) ⟨j.val, by omega⟩) := by
  unfold val_main_v98
  refine (gather_rowSlice_apply (N := 100000) (C := 65) (E := 1600000) (K := 64) (by norm_num) (by norm_num) (by decide) x1 (val_main_v97 (F := Ideal) x7) e j).trans ?_
  refine congrArg x1 (funext fun a => Fin.ext ?_)
  match a with
  | ⟨0, _⟩ => exact congrArg (fun z : BitVec 32 => min z.toInt.toNat (100000 - 1)) (pairIdx_col0 _ _ e)
  | ⟨1, _⟩ => exact (congrArg (fun z : BitVec 32 => min z.toInt.toNat (65 - 64) + j.val) (pairIdx_col1 _ _ e)).trans (by
      show min (0#32 : BitVec 32).toInt.toNat (65 - 64) + j.val = j.val
      simp)

/-- Columns [0, 64) of the target row of z_in. -/
theorem feat_in (e : Fin 1600000) (j : Fin 64) :
    val_main_v127 (F := Ideal) x0 x7 (ix2 e j) = x0 (ix2 (dstRow x7 e) ⟨j.val, by omega⟩) := by
  unfold val_main_v127
  refine (gather_rowSlice_apply (N := 100000) (C := 65) (E := 1600000) (K := 64) (by norm_num) (by norm_num) (by decide) x0 (val_main_v126 (F := Ideal) x7) e j).trans ?_
  refine congrArg x0 (funext fun a => Fin.ext ?_)
  match a with
  | ⟨0, _⟩ => exact congrArg (fun z : BitVec 32 => min z.toInt.toNat (100000 - 1)) (pairIdx_col0 _ _ e)
  | ⟨1, _⟩ => exact (congrArg (fun z : BitVec 32 => min z.toInt.toNat (65 - 64) + j.val) (pairIdx_col1 _ _ e)).trans (by
      show min (0#32 : BitVec 32).toInt.toNat (65 - 64) + j.val = j.val
      simp)

end Cert.ReferenceIdeal.ScoreValue

end
-- ==== Proof.EdgeScoreLaw.lean ====
/-
  The arithmetic that joins the two programs, on the extended reals, with no program in sight.

  One edge's score is the logistic of
      ½·(r_out + zo_last) + ½·(r_in + zi_last) + ½·Σ_{j<128} B j · (Σ_{k<128} A k · Wbd k j + bias j)
  on the kernel's side, where A, B and bias are two 64-vectors laid side by side and Wbd is the block-diagonal
  128×128 matrix whose diagonal blocks are the transposes of W_out and W_in; on the reference's side it is
      ((r_out + zo_last)·½ + (Σ_{j<64} zo j · (Σ_k sd k · W_out j k + b_out j))·½ + (r_in + zi_last)·½)
        + (Σ_{j<64} (Σ_k ss k · W_in j k + b_in j) · zi j)·½ .
  The sum over 128 lanes splits into its two halves; in each half the off-diagonal block contributes only
  products with zero; and a nonnegative finite factor distributes over any sum of extended reals, so no
  finiteness of the summands is used.
-/
import Idealize.ShloMosaic.PureOps.Ideal
import Idealize.ShloMosaic.PureOps.Ideal.Laws
import Idealize.ShloMosaic.Lib.ValueIdx
import Mathlib.Data.EReal.Operations
import Mathlib.Algebra.BigOperators.Fin

noncomputable section

namespace Cert.EdgeScore

open Idealize.ShloMosaic Idealize.ShloMosaic.ValueIdx

/-- The single-precision word `0x3F000000` denotes the real number one half. -/
theorem half_eq : Ideal.ofBits .f32 0x3F000000#32 = (((1 : ℝ) / 2 : ℝ) : EReal) := by
  simp [Ideal.ofBits, Ideal.ieee]
  rw [← EReal.coe_mul]
  congr 1
  norm_num

/-- The single-precision word `0x3F800000` denotes one. -/
theorem one_eq : Ideal.ofBits .f32 0x3F800000#32 = (1 : EReal) := by
  simp [Ideal.ofBits, Ideal.ieee]
  rw [← EReal.coe_mul, ← EReal.coe_one]
  congr 1
  norm_num

theorem half_nonneg : (0 : EReal) ≤ Ideal.ofBits .f32 0x3F000000#32 := by
  rw [half_eq]; exact_mod_cast (by norm_num : (0 : ℝ) ≤ 1 / 2)

theorem half_ne_top : Ideal.ofBits .f32 0x3F000000#32 ≠ (⊤ : EReal) := by
  rw [half_eq]; exact EReal.coe_ne_top _

/-- A sum over 128 lanes is the sum over the first 64 plus the sum over the last 64. -/
theorem sum_halves (f : Fin 128 → EReal) :
    ∑ j : Fin 128, f j = ∑ j : Fin 64, f (Fin.castAdd 64 j) + ∑ j : Fin 64, f (Fin.natAdd 64 j) :=
  Fin.sum_univ_add (a := 64) (b := 64) f

/-- Regrouping the four half-weighted terms: a nonnegative finite weight `h` distributes over `S₁ + S₂`
    whatever extended reals these are, and the rest is commutativity and associativity of the sum. -/
theorem regroup (h X Y S₁ S₂ : EReal) (h0 : 0 ≤ h) (ht : h ≠ ⊤) :
    (h * X + h * Y) + h * (S₁ + S₂) = ((X * h + S₁ * h) + Y * h) + S₂ * h := by
  rw [EReal.left_distrib_of_nonneg_of_ne_top h0 ht, mul_comm X h, mul_comm S₁ h, mul_comm Y h, mul_comm S₂ h]
  abel

/-- THE LAW. One edge's kernel value — lanes laid side by side, block-diagonal weights — is the reference's. -/
theorem row_law (A B bias : Fin 128 → EReal) (Wbd : Fin 128 → Fin 128 → EReal)
    (sd ss zo zi bo bi : Fin 64 → EReal) (Wo Wi : Fin 64 → Fin 64 → EReal) (h X Y : EReal)
    (h0 : 0 ≤ h) (ht : h ≠ ⊤)
    (hA₁ : ∀ k : Fin 64, A (Fin.castAdd 64 k) = sd k) (hA₂ : ∀ k : Fin 64, A (Fin.natAdd 64 k) = ss k)
    (hB₁ : ∀ j : Fin 64, B (Fin.castAdd 64 j) = zo j) (hB₂ : ∀ j : Fin 64, B (Fin.natAdd 64 j) = zi j)
    (hb₁ : ∀ j : Fin 64, bias (Fin.castAdd 64 j) = bo j) (hb₂ : ∀ j : Fin 64, bias (Fin.natAdd 64 j) = bi j)
    (hW₁₁ : ∀ k j : Fin 64, Wbd (Fin.castAdd 64 k) (Fin.castAdd 64 j) = Wo j k)
    (hW₂₁ : ∀ k j : Fin 64, Wbd (Fin.natAdd 64 k) (Fin.castAdd 64 j) = 0)
    (hW₁₂ : ∀ k j : Fin 64, Wbd (Fin.castAdd 64 k) (Fin.natAdd 64 j) = 0)
    (hW₂₂ : ∀ k j : Fin 64, Wbd (Fin.natAdd 64 k) (Fin.natAdd 64 j) = Wi j k) :
    (h * X + h * Y) + h * (∑ j : Fin 128, B j * ((∑ k : Fin 128, A k * Wbd k j) + bias j))
      = ((X * h + (∑ j : Fin 64, zo j * ((∑ k : Fin 64, sd k * Wo j k) + bo j)) * h) + Y * h)
        + (∑ j : Fin 64, ((∑ k : Fin 64, ss k * Wi j k) + bi j) * zi j) * h := by
  rw [sum_halves]
  simp only [sum_halves (fun k => A k * Wbd k _), hA₁, hA₂, hB₁, hB₂, hb₁, hb₂, hW₁₁, hW₂₁, hW₁₂, hW₂₂,
    mul_zero, Finset.sum_const_zero, add_zero, zero_add]
  rw [regroup h X Y _ _ h0 ht]
  congr 1
  congr 1
  exact Finset.sum_congr rfl fun j _ => mul_comm _ _

/-- THE SCORE of every edge as one function of the argument arrays, of the gathered z_self rows (`sd` at the target, `ss`
    at the source), of the normalized degrees at the edge's end points (`ro`, `ri`) and of the table rows the edge reads
    (`s` at its source, `d` at its target): what both programs compute. -/
def edgeScore (x0 x1 : (⟨2, ![100000, 65]⟩ : Shape).Idx → EReal) (x3 x5 : (⟨2, ![64, 64]⟩ : Shape).Idx → EReal)
    (x4 x6 : (⟨1, ![64]⟩ : Shape).Idx → EReal) (sd ss : (⟨2, ![1600000, 64]⟩ : Shape).Idx → EReal)
    (ro ri : (⟨1, ![1600000]⟩ : Shape).Idx → EReal) (s d : Fin 1600000 → Fin 100000) :
    (⟨1, ![1600000]⟩ : Shape).Idx → EReal := fun i =>
  Ideal.logistic
    ((((ro (ix1 (i 0)) + x1 (ix2 (s (i 0)) (64 : Fin 65))) * Ideal.ofBits .f32 0x3F000000#32
        + (∑ j : Fin 64, x1 (ix2 (s (i 0)) ⟨j.val, by omega⟩) * ((∑ k : Fin 64, sd (ix2 (i 0) k) * x5 (ix2 j k)) + x6 (ix1 j)))
            * Ideal.ofBits .f32 0x3F000000#32)
      + (ri (ix1 (i 0)) + x0 (ix2 (d (i 0)) (64 : Fin 65))) * Ideal.ofBits .f32 0x3F000000#32)
    + (∑ j : Fin 64, ((∑ k : Fin 64, ss (ix2 (i 0) k) * x3 (ix2 j k)) + x4 (ix1 j)) * x0 (ix2 (d (i 0)) ⟨j.val, by omega⟩))
        * Ideal.ofBits .f32 0x3F000000#32)

end Cert.EdgeScore

end
-- ==== Proof.KernelScore.lean ====
/-
  The kernel's result is the score function.

  Row e of the score column is the stored column's per-row value at the staged arrays; reading each staged array at row e
  (packed lanes, block-diagonal weights, bias row, auxiliary column, gathered table rows) turns it into the left side
  of the arithmetic law, whose right side is the score function's body.
-/
import proofs.«113370_j67104569033152_2_alg».proof.Proof.KernelValue
import proofs.«113370_j67104569033152_2_alg».proof.Proof.KernelHost
import proofs.«113370_j67104569033152_2_alg».proof.Proof.PackedRead
import proofs.«113370_j67104569033152_2_alg».proof.Proof.BlockWeights
import proofs.«113370_j67104569033152_2_alg».proof.Proof.RefRead
import proofs.«113370_j67104569033152_2_alg».proof.Proof.EdgeScoreLaw

set_option maxRecDepth 16384

noncomputable section

namespace Cert.KernelIdeal.ScoreValue

open Idealize.ShloMosaic Idealize.ShloMosaic.TcCoe Idealize.ShloMosaic.ValueIdx Idealize.SL.Sem
open Cert.KernelIdeal Cert.KernelIdeal.Gen Cert.KernelIdeal.HostSide Cert.KernelIdeal.HostRead Cert.EdgeScore
open Cert.ReferenceIdeal.ScoreValue (srcRow dstRow)

variable (m : (ℓ : Loc nD τ sig) → Buf (Elt Ideal) ℓ)

/-- THE KERNEL'S RESULT, as the score function of the argument arrays. -/
theorem kernel_score (c : Dev nD) :
    shapeCast S1600000 (scoreCol (V m c main_v87) (V m c main_v88) (V m c main_v108) (V m c main_v110) (V m c main_v96))
        shapeCasts_S1600000x1_S1600000
      = edgeScore (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))
          (Cert.ReferenceIdeal.Read.val_main_v58 (F := Ideal) (m ((c : Thread nD τ).loc main_arg2)) (m ((c : Thread nD τ).loc main_arg7)))
          (Cert.ReferenceIdeal.Read.val_main_v70 (F := Ideal) (m ((c : Thread nD τ).loc main_arg2)) (m ((c : Thread nD τ).loc main_arg7)))
          (Cert.ReferenceIdeal.Read.val_main_v37 (F := Ideal) (m ((c : Thread nD τ).loc main_arg7)))
          (Cert.ReferenceIdeal.Read.val_main_v51 (F := Ideal) (m ((c : Thread nD τ).loc main_arg7)))
          (srcRow (m ((c : Thread nD τ).loc main_arg7))) (dstRow (m ((c : Thread nD τ).loc main_arg7))) := by
  funext i
  obtain ⟨e, rfl⟩ : ∃ e : Fin 1600000, i = ix1 e := ⟨i 0, eq_ix1 i⟩
  refine (shapeCast_apply _ shapeCasts_S1600000x1_S1600000 (ix1 e) (ix2 e (0 : Fin 1)) (by
      rw [Shape.rowMajor_val_two, Shape.rowMajor_val_one]; show e.val * 1 + 0 = e.val; omega)).trans ?_
  unfold scoreCol edgeScore
  refine congrArg Ideal.logistic ?_
  have hrow2 : (ix2 e (0 : Fin 1) : S1600000x1.Idx) 0 = e := rfl
  have hrow1 : (ix1 e : S1600000.Idx) 0 = e := rfl
  simp only [hrow2, hrow1]
  rw [lhs_host m c, rhs_host m c, wbd_host m c, bias_host m c, aux_host m c]
  rw [auxCol_apply, rowGather65_apply, rowGather65_apply]
  exact row_law
    (fun k => truncf (F := Ideal) .bf16 (concatenate S1600000x128 1 [⟨S1600000x64, Cert.ReferenceIdeal.Read.val_main_v58 (F := Ideal) (m ((c : Thread nD τ).loc main_arg2)) (m ((c : Thread nD τ).loc main_arg7))⟩,
        ⟨S1600000x64, Cert.ReferenceIdeal.Read.val_main_v70 (F := Ideal) (m ((c : Thread nD τ).loc main_arg2)) (m ((c : Thread nD τ).loc main_arg7))⟩] concatenates_S1600000x64_S1600000x64_S1600000x128_d1) bitsLt_bf16_f32 (ix2 e k))
    _ _ _
    (fun k => Cert.ReferenceIdeal.Read.val_main_v58 (F := Ideal) (m ((c : Thread nD τ).loc main_arg2)) (m ((c : Thread nD τ).loc main_arg7)) (ix2 e k))
    (fun k => Cert.ReferenceIdeal.Read.val_main_v70 (F := Ideal) (m ((c : Thread nD τ).loc main_arg2)) (m ((c : Thread nD τ).loc main_arg7)) (ix2 e k))
    (fun j => (m ((c : Thread nD τ).loc main_arg1)) (ix2 (srcRow (m ((c : Thread nD τ).loc main_arg7)) e) ⟨j.val, by omega⟩))
    (fun j => (m ((c : Thread nD τ).loc main_arg0)) (ix2 (dstRow (m ((c : Thread nD τ).loc main_arg7)) e) ⟨j.val, by omega⟩))
    (fun j => (m ((c : Thread nD τ).loc main_arg6)) (ix1 j)) (fun j => (m ((c : Thread nD τ).loc main_arg4)) (ix1 j))
    (fun j k => (m ((c : Thread nD τ).loc main_arg5)) (ix2 j k)) (fun j k => (m ((c : Thread nD τ).loc main_arg3)) (ix2 j k))
    (Ideal.ofBits .f32 0x3F000000#32) _ _ half_nonneg half_ne_top
    (fun k => packed_left _ _ e k) (fun k => packed_right _ _ e k)
    (fun j => (packed_left _ _ e j).trans ((featCols_apply _ e j).trans (rowGather65_apply _ _ e _)))
    (fun j => (packed_right _ _ e j).trans ((featCols_apply _ e j).trans (rowGather65_apply _ _ e _)))
    (fun j => biasRow_left _ _ j) (fun j => biasRow_right _ _ j)
    (fun k j => blockWeights_11 _ _ k j) (fun k j => blockWeights_21 _ _ k j)
    (fun k j => blockWeights_12 _ _ k j) (fun k j => blockWeights_22 _ _ k j)

end Cert.KernelIdeal.ScoreValue

end
-- ==== Proof.RefScore.lean ====
/-
  The reference's result is the score function.

  Its two aligned dot products are row sums (from a zero initial value) of products whose one factor is a matrix product
  with a transposed weight matrix plus a bias row; its last six operations are the logistic function spelt out,
  1 / (1 + exp (−v)).
-/
import proofs.«113370_j67104569033152_2_alg».proof.Proof.RefRead
import proofs.«113370_j67104569033152_2_alg».proof.Proof.EdgeScoreLaw

noncomputable section

namespace Cert.ReferenceIdeal.ScoreValue

open Idealize.ShloMosaic Idealize.ShloMosaic.ValueIdx Cert.ReferenceIdeal Cert.ReferenceIdeal.Gen Cert.ReferenceIdeal.Read Cert.EdgeScore

variable (x0 x1 : (⟨S100000x65, .f32⟩ : BufTy).Contents (Elt Ideal)) (x2 : (⟨S100000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S2x1600000, .i32⟩ : BufTy).Contents (Elt Ideal))

/-- The aligned dot product at the source: Σ_j z_out(s, j) · (Σ_k z_self(d, k) · W_out(j, k) + b_out j). -/
theorem alignOut_sum (e : Fin 1600000) :
    val_main_v100 (F := Ideal) x1 x2 x5 x6 x7 (ix1 e)
      = ∑ j : Fin 64, x1 (ix2 (srcRow x7 e) ⟨j.val, by omega⟩)
          * ((∑ k : Fin 64, val_main_v58 (F := Ideal) x2 x7 (ix2 e k) * x5 (ix2 j k)) + x6 (ix1 j)) := by
  rw [val_main_v100_apply]
  have hz : (val_main_cst_25 (F := Ideal)) (Shape.Idx.first h_S_) = 0 := Ideal.ofBits_zero_f32
  rw [hz, zero_add]
  refine Finset.sum_congr rfl fun j _ => ?_
  have hi : idx_main_v100 (ix1 e) j = ix2 e j := funext fun a => match a with
    | ⟨0, _⟩ => rfl
    | ⟨1, _⟩ => rfl
  rw [hi, val_main_v99_apply, feat_out, val_main_v63_apply, val_main_v60_apply, val_main_v62_apply, val_main_v61_apply]
  show _ * ((∑ k : Fin 64, _) + _) = _
  refine congrArg₂ (· * ·) rfl (congrArg₂ (· + ·) (Finset.sum_congr rfl fun k _ => ?_) ?_)
  · have hl : lidx_main_v60 (ix2 e j) k = ix2 e k := funext fun a => match a with
      | ⟨0, _⟩ => rfl
      | ⟨1, _⟩ => rfl
    have hr : idx_main_v59 (ridx_main_v60 (ix2 e j) k) = ix2 j k := funext fun a => match a with
      | ⟨0, _⟩ => rfl
      | ⟨1, _⟩ => rfl
    rw [hl, val_main_v59_apply, hr]
  · exact congrArg x6 (funext fun a => match a with | ⟨0, _⟩ => rfl)

/-- The aligned dot product at the target: Σ_j (Σ_k z_self(s, k) · W_in(j, k) + b_in j) · z_in(d, j). -/
theorem alignIn_sum (e : Fin 1600000) :
    val_main_v129 (F := Ideal) x0 x2 x3 x4 x7 (ix1 e)
      = ∑ j : Fin 64, ((∑ k : Fin 64, val_main_v70 (F := Ideal) x2 x7 (ix2 e k) * x3 (ix2 j k)) + x4 (ix1 j))
          * x0 (ix2 (dstRow x7 e) ⟨j.val, by omega⟩) := by
  rw [val_main_v129_apply]
  have hz : (val_main_cst_34 (F := Ideal)) (Shape.Idx.first h_S_) = 0 := Ideal.ofBits_zero_f32
  rw [hz, zero_add]
  refine Finset.sum_congr rfl fun j _ => ?_
  have hi : idx_main_v129 (ix1 e) j = ix2 e j := funext fun a => match a with
    | ⟨0, _⟩ => rfl
    | ⟨1, _⟩ => rfl
  rw [hi, val_main_v128_apply, feat_in, val_main_v75_apply, val_main_v72_apply, val_main_v74_apply, val_main_v73_apply]
  show ((∑ k : Fin 64, _) + _) * _ = _
  refine congrArg₂ (· * ·) (congrArg₂ (· + ·) (Finset.sum_congr rfl fun k _ => ?_) ?_) rfl
  · have hl : lidx_main_v72 (ix2 e j) k = ix2 e k := funext fun a => match a with
      | ⟨0, _⟩ => rfl
      | ⟨1, _⟩ => rfl
    have hr : idx_main_v71 (ridx_main_v72 (ix2 e j) k) = ix2 j k := funext fun a => match a with
      | ⟨0, _⟩ => rfl
      | ⟨1, _⟩ => rfl
    rw [hl, val_main_v71_apply, hr]
  · exact congrArg x4 (funext fun a => match a with | ⟨0, _⟩ => rfl)

/-- THE REFERENCE'S RESULT, as the score function of the argument arrays. -/
theorem ref_score :
    val_main_v138 (F := Ideal) x0 x1 x2 x3 x4 x5 x6 x7
      = edgeScore x0 x1 x3 x5 x4 x6 (val_main_v58 (F := Ideal) x2 x7) (val_main_v70 (F := Ideal) x2 x7)
          (val_main_v37 (F := Ideal) x7) (val_main_v51 (F := Ideal) x7) (srcRow x7) (dstRow x7) := by
  funext i
  obtain ⟨e, rfl⟩ : ∃ e : Fin 1600000, i = ix1 e := ⟨i 0, eq_ix1 i⟩
  rw [val_main_v138_apply, val_main_v136_apply, val_main_v134_apply, val_main_v133_apply, val_main_v132_apply,
    val_main_v131_apply, val_main_v118_apply, val_main_v117_apply, val_main_v115_apply, val_main_v103_apply,
    val_main_v102_apply, val_main_v89_apply, val_main_v87_apply, alignOut_sum, alignIn_sum, last_out, last_in]
  have c137 : val_main_v137 (F := Ideal) (ix1 e) = 1 := one_eq
  have c135 : val_main_v135 (F := Ideal) (ix1 e) = 1 := one_eq
  have c130 : val_main_v130 (F := Ideal) (ix1 e) = Ideal.ofBits .f32 0x3F000000#32 := rfl
  have c116 : val_main_v116 (F := Ideal) (ix1 e) = Ideal.ofBits .f32 0x3F000000#32 := rfl
  have c101 : val_main_v101 (F := Ideal) (ix1 e) = Ideal.ofBits .f32 0x3F000000#32 := rfl
  have c88 : val_main_v88 (F := Ideal) (ix1 e) = Ideal.ofBits .f32 0x3F000000#32 := rfl
  rw [c137, c135, c130, c116, c101, c88]
  unfold edgeScore
  simp only [Ideal.hostDivf_def, Ideal.addf_def, Ideal.hostUnary_exp_def, Ideal.hostNegf_def, Ideal.negf_def, Ideal.mulf_def]
  rfl

end Cert.ReferenceIdeal.ScoreValue

end
-- ==== Proof.lean ====
/-
  The kernel scores every edge of a graph: it gathers node rows at the edges' end points, packs four 64-lane streams into
  two 128-lane ones, multiplies by a block-diagonal weight matrix in one product, and fuses the row-wise dot product, the
  degree term and the logistic function into one pass over tiles of 6400 edges.  The reference computes the same score
  with two separate 64-lane products.  On the extended reals both are ONE function of the argument arrays
  (Proof/EdgeScoreLaw.lean `edgeScore`): the kernel's by Proof/KernelValue.lean (the result column from the staged
  arrays), Proof/KernelHost.lean (the staged arrays from the arguments) and Proof/KernelScore.lean; the reference's by
  Proof/RefRead.lean and Proof/RefScore.lean over its generated run.  The law that joins them uses only that a
  nonnegative finite weight distributes over sums and that a product with zero is zero, so the precondition is not opened.
  The three frames are the generated ones; the idealization rewrote nothing.
-/
import proofs.«113370_j67104569033152_2_alg».proof.Defs
import proofs.«113370_j67104569033152_2_alg».proof.Proof.Gen.Kernel
import proofs.«113370_j67104569033152_2_alg».proof.Proof.Gen.Kernel.Frame
import proofs.«113370_j67104569033152_2_alg».proof.Proof.Gen.KernelIdeal
import proofs.«113370_j67104569033152_2_alg».proof.Proof.Gen.KernelIdeal.Frame
import proofs.«113370_j67104569033152_2_alg».proof.Proof.Gen.ReferenceIdeal
import proofs.«113370_j67104569033152_2_alg».proof.Proof.Gen.ReferenceIdeal.Run
import proofs.«113370_j67104569033152_2_alg».proof.Proof.Gen.ReferenceIdeal.Read
import proofs.«113370_j67104569033152_2_alg».proof.Proof.Gen.Pre_finite_inputs
import proofs.«113370_j67104569033152_2_alg».proof.Proof.KernelScore
import proofs.«113370_j67104569033152_2_alg».proof.Proof.RefScore
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the score function of those arguments. -/
theorem algebraic : Cert.algebraic_KernelIdeal_ReferenceIdeal := by
  intro m ρ m' ρ' _ hagree
  refine ⟨_, Cert.KernelIdeal.ScoreValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v138_eq, Cert.ReferenceIdeal.ScoreValue.ref_score, Cert.KernelIdeal.ScoreValue.kernel_score,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
